-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x64 .f32) (main_arg3 : FVec F S64 .f32) (main_arg4 : FVec F S64x1 .f32) (main_arg5 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S2000x256 : Shape := ⟨2, ![2000, 256]⟩
abbrev S2000x64 : Shape := ⟨2, ![2000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S2000x1 : Shape := ⟨2, ![2000, 1]⟩
abbrev S1x1 : Shape := ⟨2, ![1, 1]⟩

abbrev nBuf : Space → Nat
  | .hbm => 119
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x1, .f32⟩
  | .hbm, ⟨66, _⟩ => ⟨S100000, .i32⟩
  | .hbm, ⟨67, _⟩ => ⟨S1700000, .i32⟩
  | .hbm, ⟨68, _⟩ => ⟨S1700000, .i32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000, .f32⟩
  | .hbm, ⟨102, _⟩ => ⟨S1700000x1, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x1, .f32⟩
  | .hbm, ⟨112, _⟩ => ⟨S1700000x1, .f32⟩
  | .hbm, ⟨113, _⟩ => ⟨S_, .f32⟩
  | .hbm, ⟨114, _⟩ => ⟨S100000x1, .f32⟩
  | .hbm, ⟨115, _⟩ => ⟨S1700000x1, .i32⟩
  | .hbm, ⟨116, _⟩ => ⟨S100000x1, .f32⟩
  | .hbm, ⟨117, _⟩ => ⟨S1x1, .f32⟩
  | .hbm, ⟨118, _⟩ => ⟨S100000x1, .f32⟩
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x1, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S2000x1, .f32⟩
  | .local _ .vmem, ⟨17, _⟩ => ⟨S1x1, .f32⟩
  | .local _ .vmem, ⟨18, _⟩ => ⟨S2000x1, .f32⟩
  | .local _ .vmem, ⟨19, _⟩ => ⟨S2000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_call1_v0 : Ref sig .tc := ⟨.hbm, 80, rfl⟩
abbrev main_call1_v1 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_19 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x256_S2000x256_0_0 : ∀ a, (![0, 0] : Fin 2 → Nat) a + S2000x256.size a ≤ S2000x256.size a
  h_S2000x256 : 0 < S2000x256.numel
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  inb_S2000x1_S2000x1_0_0 : ∀ a, (![0, 0] : Fin 2 → Nat) a + S2000x1.size a ≤ S2000x1.size a
  h_S2000x1 : 0 < S2000x1.numel
  bcast_S_S100000x1 : S_.BroadcastsInDim S100000x1 (![] : Fin 0 → Fin S100000x1.rank)
  shapeCasts_S1_S1x1 : S1.ShapeCasts S1x1
  shapeCasts_S2000x1_S2000x1 : S2000x1.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  dot_S2000x256_S256x64_S2000x64_1_0_0_1_n_n_wf : DotDims.WF S2000x256 S256x64 S2000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x1_S2000x1_1_0_0_1_n_n_wf : DotDims.WF S2000x64 S64x1 S2000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x1.size a ≤ S100000x1.size a
  hwx3_0 : ∀ i : grid3.Coords, EltTy.bits .f32 = 32 ∨ (Rect.block (s := S100000x1) S2000x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)

variable [Facts₀]

def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S2000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S2000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 132
  | .vmem => 0
  | .smem => 0
  | _ => 0

abbrev hbmTy0_0 (i : Nat) : BufTy := match i % 128 with
  | 0 => ⟨S100000x256, .f32⟩
  | 1 => ⟨S2x1600000, .i32⟩
  | 2 => ⟨S256x64, .f32⟩
  | 3 => ⟨S64, .f32⟩
  | 4 => ⟨S64x1, .f32⟩
  | 5 => ⟨S1, .f32⟩
  | 6 => ⟨S1x1600000, .i32⟩
  | 7 => ⟨S1600000, .i32⟩
  | 8 => ⟨S1x1600000, .i32⟩
  | 9 => ⟨S1600000, .i32⟩
  | 10 => ⟨S100000x64, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S1700000x1, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x1, .f32⟩
  | 70 => ⟨S100000, .i32⟩
  | 71 => ⟨S1700000, .i32⟩
  | 72 => ⟨S1700000, .i32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S1700000x1, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x1, .f32⟩
  | 116 => ⟨S1700000x1, .f32⟩
  | 117 => ⟨S_, .f32⟩
  | 118 => ⟨S100000x1, .f32⟩
  | 119 => ⟨S1700000x1, .i32⟩
  | 120 => ⟨S100000x1, .f32⟩
  | 121 => ⟨S1x1, .f32⟩
  | 122 => ⟨S100000x1, .f32⟩
  | 123 => ⟨S100000x1, .f32⟩
  | 124 => ⟨S100000x1, .f32⟩
  | 125 => ⟨S100000x1, .f32⟩
  | 126 => ⟨S_, .f32⟩
  | 127 => ⟨S100000x1, .f32⟩
  | _ => ⟨S100000x256, .f32⟩

abbrev hbmTy0_1 (i : Nat) : BufTy := match i % 128 with
  | 0 => ⟨S100000x1, .f32⟩
  | 1 => ⟨S_, .f32⟩
  | 2 => ⟨S100000x1, .f32⟩
  | 3 => ⟨S100000x1, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_20 : Ref sig .tc := ⟨.hbm, 126, rfl⟩
abbrev main_v92 : Ref sig .tc := ⟨.hbm, 127, rfl⟩
abbrev main_v93 : Ref sig .tc := ⟨.hbm, 128, rfl⟩
abbrev main_cst_21 : Ref sig .tc := ⟨.hbm, 129, rfl⟩
abbrev main_v94 : Ref sig .tc := ⟨.hbm, 130, rfl⟩
abbrev main_v95 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x256_S256x64_S100000x64_1_0_0_1_n_n_wf : DotDims.WF S100000x256 S256x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KernelRun.lean ====
/-
  The idealized kernel's run with its result named. The program is four grid pipelines among stretches of host
  operations; the generated frame follows the contents of every buffer from the launch through each stretch and each
  pipeline to the return, and shows that at the return every buffer that outlives the call holds the last of those
  contents. The frame keeps that fact for the argument arrays only. Here the same run is stated once more with the
  result array kept too: it ends holding what the last pipeline's write-backs leave in it.
-/
import proofs.«121171_j3934190044271_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the contents the
    last boundary of the run gives it, and the six argument arrays end as launched. -/
theorem run : θ_run defs (onTc (τ := τ) (main (F := F))) ⟨m, fun _ => 0, ρ⟩ (fun r => ∀ c : Dev nD,
      r.2.mem ((c.tc : Thread nD τ).loc main_v86) = W11 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v86 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.Result

end
-- ==== Proof.LibReads.lean ====
/-
  Reading a buffer through a straight line of host operations.

  `after ops V` is what the buffers hold once the operations have run in order from contents `V`: each operation
  rewrites the buffer it writes and leaves the rest. For a literal list of operations over literal references, what one
  buffer holds afterwards is a computation: at the operation's own result buffer its function's value of the operands'
  contents, at any other buffer what was there. One simplification pass does this wherever the operands sit in
  argument position. Where an operand sits inside a list of (shape, array) pairs — the operands of a concatenation —
  the pass leaves the read standing; a short loop of single rewrites finishes those. `reads` is the two in a row, and
  stops at whatever the line started from (a variable or a definition it cannot unfold), which makes it usable on one
  stretch of a longer program at a time.

-/
import Idealize.ShloMosaic.Lib.StableHlo.Run

noncomputable section

namespace Cert.LibReads

open Idealize.ShloMosaic Idealize.ShloMosaic.StableHlo

/-- Reads left standing inside a concatenation's list of operands: each operation's result at its own buffer is its
    function's value, at any other buffer what was there. -/
macro "finish_reads" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-- Read a buffer through a literal line of host operations, down to the contents the line started from. -/
macro "reads" : tactic => `(tactic| ((try after_results_simp); finish_reads))

end Cert.LibReads

end
-- ==== Proof.BridgeBase.lean ====
/-
  The reference's straight line of host operations, cut at the five places where the kernel's run passes from host
  operations to a grid pipeline or back, and the buffers that no stage between two cuts writes: the six argument
  arrays and the two index rows cut out of the edge list read the same at every later cut, on both sides.
-/
import proofs.«121171_j3934190044271_1_alg».proof.Proof.Gen.KernelIdeal.Frame
import proofs.«121171_j3934190044271_1_alg».proof.Proof.RefRun
import proofs.«121171_j3934190044271_1_alg».proof.Proof.LibReads
import Idealize.ShloMosaic.PureOps.Ideal

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Cert.LibReads

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)
variable (c : Dev nD)

/-! ## The reference's buffers at its five cuts -/

/-- At launch. -/
def R0 : Valuation Cert.ReferenceIdeal.τ Cert.ReferenceIdeal.sig (Elt Ideal) := launchContents m' c
/-- After the index rows and the first product. -/
def R1 : Valuation Cert.ReferenceIdeal.τ Cert.ReferenceIdeal.sig (Elt Ideal) := after (Cert.ReferenceIdeal.ValueP.seg0 (F := Ideal)) (R0 m' c)
/-- After the first aggregation. -/
def R2 : Valuation Cert.ReferenceIdeal.τ Cert.ReferenceIdeal.sig (Elt Ideal) := after (Cert.ReferenceIdeal.ValueP.seg1 (F := Ideal)) (R1 m' c)
/-- After the first bias and maximum. -/
def R3 : Valuation Cert.ReferenceIdeal.τ Cert.ReferenceIdeal.sig (Elt Ideal) := after (Cert.ReferenceIdeal.ValueP.seg2 (F := Ideal)) (R2 m' c)
/-- After the second product. -/
def R4 : Valuation Cert.ReferenceIdeal.τ Cert.ReferenceIdeal.sig (Elt Ideal) := after (Cert.ReferenceIdeal.ValueP.seg3 (F := Ideal)) (R3 m' c)
/-- After the second aggregation. -/
def R5 : Valuation Cert.ReferenceIdeal.τ Cert.ReferenceIdeal.sig (Elt Ideal) := after (Cert.ReferenceIdeal.ValueP.seg4 (F := Ideal)) (R4 m' c)
/-- At the return. -/
def R6 : Valuation Cert.ReferenceIdeal.τ Cert.ReferenceIdeal.sig (Elt Ideal) := after (Cert.ReferenceIdeal.ValueP.seg5 (F := Ideal)) (R5 m' c)

/-- The whole line's fold is the last of these. -/
theorem ref_fold (b : DevRef Cert.ReferenceIdeal.τ Cert.ReferenceIdeal.sig) :
    after (Cert.ReferenceIdeal.ValueP.ops (F := Ideal)) (launchContents m' c) b = R6 m' c b := by
  rw [Cert.ReferenceIdeal.ValueP.ops_split]
  simp only [StableHlo.after_append]
  rfl

/-! ## Buffers that pass through unchanged -/

theorem k1_main_arg0 : W1 m ρ c (Proc.devRef .tc main_arg0) = m ((c.tc : Thread nD τ).loc main_arg0) := by
  show after hostOps0 (W0 m ρ c) (Proc.devRef .tc main_arg0) = _
  reads
theorem k1_main_arg2 : W1 m ρ c (Proc.devRef .tc main_arg2) = m ((c.tc : Thread nD τ).loc main_arg2) := by
  show after hostOps0 (W0 m ρ c) (Proc.devRef .tc main_arg2) = _
  reads
theorem k1_main_arg3 : W1 m ρ c (Proc.devRef .tc main_arg3) = m ((c.tc : Thread nD τ).loc main_arg3) := by
  show after hostOps0 (W0 m ρ c) (Proc.devRef .tc main_arg3) = _
  reads
theorem k1_main_arg4 : W1 m ρ c (Proc.devRef .tc main_arg4) = m ((c.tc : Thread nD τ).loc main_arg4) := by
  show after hostOps0 (W0 m ρ c) (Proc.devRef .tc main_arg4) = _
  reads
theorem k1_main_arg5 : W1 m ρ c (Proc.devRef .tc main_arg5) = m ((c.tc : Thread nD τ).loc main_arg5) := by
  show after hostOps0 (W0 m ρ c) (Proc.devRef .tc main_arg5) = _
  reads
theorem k2_main_arg3 : W2 m ρ c (Proc.devRef .tc main_arg3) = m ((c.tc : Thread nD τ).loc main_arg3) := (W2_of_ne m ρ c main_arg3 (by decide)).trans (k1_main_arg3 m ρ c)
theorem k2_main_arg4 : W2 m ρ c (Proc.devRef .tc main_arg4) = m ((c.tc : Thread nD τ).loc main_arg4) := (W2_of_ne m ρ c main_arg4 (by decide)).trans (k1_main_arg4 m ρ c)
theorem k2_main_arg5 : W2 m ρ c (Proc.devRef .tc main_arg5) = m ((c.tc : Thread nD τ).loc main_arg5) := (W2_of_ne m ρ c main_arg5 (by decide)).trans (k1_main_arg5 m ρ c)
theorem k5_main_arg4 : W5 m ρ c (Proc.devRef .tc main_arg4) = m ((c.tc : Thread nD τ).loc main_arg4) := by
  show (after hostOps1_2 (after hostOps1_1 (after hostOps1 (W2 m ρ c)))) (Proc.devRef .tc main_arg4) = _
  reads
  exact k2_main_arg4 m ρ c
theorem k6_main_arg4 : W6 m ρ c (Proc.devRef .tc main_arg4) = m ((c.tc : Thread nD τ).loc main_arg4) := (W6_of_ne m ρ c main_arg4 (by decide)).trans (k5_main_arg4 m ρ c)
theorem k5_main_arg5 : W5 m ρ c (Proc.devRef .tc main_arg5) = m ((c.tc : Thread nD τ).loc main_arg5) := by
  show (after hostOps1_2 (after hostOps1_1 (after hostOps1 (W2 m ρ c)))) (Proc.devRef .tc main_arg5) = _
  reads
  exact k2_main_arg5 m ρ c
theorem k6_main_arg5 : W6 m ρ c (Proc.devRef .tc main_arg5) = m ((c.tc : Thread nD τ).loc main_arg5) := (W6_of_ne m ρ c main_arg5 (by decide)).trans (k5_main_arg5 m ρ c)
theorem k7_main_arg5 : W7 m ρ c (Proc.devRef .tc main_arg5) = m ((c.tc : Thread nD τ).loc main_arg5) := (W7_of_ne m ρ c main_arg5 (by decide)).trans (k6_main_arg5 m ρ c)

theorem k2_main_v1 : W2 m ρ c (Proc.devRef .tc main_v1) = W1 m ρ c (Proc.devRef .tc main_v1) := W2_of_ne m ρ c main_v1 (by decide)
theorem k5_main_v1 : W5 m ρ c (Proc.devRef .tc main_v1) = W2 m ρ c (Proc.devRef .tc main_v1) := by
  show (after hostOps1_2 (after hostOps1_1 (after hostOps1 (W2 m ρ c)))) (Proc.devRef .tc main_v1) = _
  reads
theorem k7_main_v1 : W7 m ρ c (Proc.devRef .tc main_v1) = W1 m ρ c (Proc.devRef .tc main_v1) :=
  (W7_of_ne m ρ c main_v1 (by decide)).trans ((W6_of_ne m ρ c main_v1 (by decide)).trans ((k5_main_v1 m ρ c).trans (k2_main_v1 m ρ c)))
theorem k2_main_v3 : W2 m ρ c (Proc.devRef .tc main_v3) = W1 m ρ c (Proc.devRef .tc main_v3) := W2_of_ne m ρ c main_v3 (by decide)
theorem k5_main_v3 : W5 m ρ c (Proc.devRef .tc main_v3) = W2 m ρ c (Proc.devRef .tc main_v3) := by
  show (after hostOps1_2 (after hostOps1_1 (after hostOps1 (W2 m ρ c)))) (Proc.devRef .tc main_v3) = _
  reads
theorem k7_main_v3 : W7 m ρ c (Proc.devRef .tc main_v3) = W1 m ρ c (Proc.devRef .tc main_v3) :=
  (W7_of_ne m ρ c main_v3 (by decide)).trans ((W6_of_ne m ρ c main_v3 (by decide)).trans ((k5_main_v3 m ρ c).trans (k2_main_v3 m ρ c)))
theorem r1_main_arg3 : R1 m' c (Proc.devRef .tc Cert.ReferenceIdeal.main_arg3) = m' ((c.tc : Thread Cert.ReferenceIdeal.nD Cert.ReferenceIdeal.τ).loc Cert.ReferenceIdeal.main_arg3) := by
  show after (Cert.ReferenceIdeal.ValueP.seg0 (F := Ideal)) (R0 m' c) (Proc.devRef .tc Cert.ReferenceIdeal.main_arg3) = _
  reads
  rfl
theorem r2_main_arg3 : R2 m' c (Proc.devRef .tc Cert.ReferenceIdeal.main_arg3) = m' ((c.tc : Thread Cert.ReferenceIdeal.nD Cert.ReferenceIdeal.τ).loc Cert.ReferenceIdeal.main_arg3) := by
  show after (Cert.ReferenceIdeal.ValueP.seg1 (F := Ideal)) (R1 m' c) (Proc.devRef .tc Cert.ReferenceIdeal.main_arg3) = _
  reads
  exact r1_main_arg3 m' c
theorem r1_main_arg4 : R1 m' c (Proc.devRef .tc Cert.ReferenceIdeal.main_arg4) = m' ((c.tc : Thread Cert.ReferenceIdeal.nD Cert.ReferenceIdeal.τ).loc Cert.ReferenceIdeal.main_arg4) := by
  show after (Cert.ReferenceIdeal.ValueP.seg0 (F := Ideal)) (R0 m' c) (Proc.devRef .tc Cert.ReferenceIdeal.main_arg4) = _
  reads
  rfl
theorem r2_main_arg4 : R2 m' c (Proc.devRef .tc Cert.ReferenceIdeal.main_arg4) = m' ((c.tc : Thread Cert.ReferenceIdeal.nD Cert.ReferenceIdeal.τ).loc Cert.ReferenceIdeal.main_arg4) := by
  show after (Cert.ReferenceIdeal.ValueP.seg1 (F := Ideal)) (R1 m' c) (Proc.devRef .tc Cert.ReferenceIdeal.main_arg4) = _
  reads
  exact r1_main_arg4 m' c
theorem r3_main_arg4 : R3 m' c (Proc.devRef .tc Cert.ReferenceIdeal.main_arg4) = m' ((c.tc : Thread Cert.ReferenceIdeal.nD Cert.ReferenceIdeal.τ).loc Cert.ReferenceIdeal.main_arg4) := by
  show after (Cert.ReferenceIdeal.ValueP.seg2 (F := Ideal)) (R2 m' c) (Proc.devRef .tc Cert.ReferenceIdeal.main_arg4) = _
  reads
  exact r2_main_arg4 m' c
theorem r1_main_arg5 : R1 m' c (Proc.devRef .tc Cert.ReferenceIdeal.main_arg5) = m' ((c.tc : Thread Cert.ReferenceIdeal.nD Cert.ReferenceIdeal.τ).loc Cert.ReferenceIdeal.main_arg5) := by
  show after (Cert.ReferenceIdeal.ValueP.seg0 (F := Ideal)) (R0 m' c) (Proc.devRef .tc Cert.ReferenceIdeal.main_arg5) = _
  reads
  rfl
theorem r2_main_arg5 : R2 m' c (Proc.devRef .tc Cert.ReferenceIdeal.main_arg5) = m' ((c.tc : Thread Cert.ReferenceIdeal.nD Cert.ReferenceIdeal.τ).loc Cert.ReferenceIdeal.main_arg5) := by
  show after (Cert.ReferenceIdeal.ValueP.seg1 (F := Ideal)) (R1 m' c) (Proc.devRef .tc Cert.ReferenceIdeal.main_arg5) = _
  reads
  exact r1_main_arg5 m' c
theorem r3_main_arg5 : R3 m' c (Proc.devRef .tc Cert.ReferenceIdeal.main_arg5) = m' ((c.tc : Thread Cert.ReferenceIdeal.nD Cert.ReferenceIdeal.τ).loc Cert.ReferenceIdeal.main_arg5) := by
  show after (Cert.ReferenceIdeal.ValueP.seg2 (F := Ideal)) (R2 m' c) (Proc.devRef .tc Cert.ReferenceIdeal.main_arg5) = _
  reads
  exact r2_main_arg5 m' c
theorem r4_main_arg5 : R4 m' c (Proc.devRef .tc Cert.ReferenceIdeal.main_arg5) = m' ((c.tc : Thread Cert.ReferenceIdeal.nD Cert.ReferenceIdeal.τ).loc Cert.ReferenceIdeal.main_arg5) := by
  show after (Cert.ReferenceIdeal.ValueP.seg3 (F := Ideal)) (R3 m' c) (Proc.devRef .tc Cert.ReferenceIdeal.main_arg5) = _
  reads
  exact r3_main_arg5 m' c
theorem r5_main_arg5 : R5 m' c (Proc.devRef .tc Cert.ReferenceIdeal.main_arg5) = m' ((c.tc : Thread Cert.ReferenceIdeal.nD Cert.ReferenceIdeal.τ).loc Cert.ReferenceIdeal.main_arg5) := by
  show after (Cert.ReferenceIdeal.ValueP.seg4 (F := Ideal)) (R4 m' c) (Proc.devRef .tc Cert.ReferenceIdeal.main_arg5) = _
  reads
  exact r4_main_arg5 m' c
theorem r2_main_v1 : R2 m' c (Proc.devRef .tc Cert.ReferenceIdeal.main_v1) = R1 m' c (Proc.devRef .tc Cert.ReferenceIdeal.main_v1) := by
  show after (Cert.ReferenceIdeal.ValueP.seg1 (F := Ideal)) (R1 m' c) (Proc.devRef .tc Cert.ReferenceIdeal.main_v1) = _
  reads
theorem r3_main_v1 : R3 m' c (Proc.devRef .tc Cert.ReferenceIdeal.main_v1) = R1 m' c (Proc.devRef .tc Cert.ReferenceIdeal.main_v1) := by
  show after (Cert.ReferenceIdeal.ValueP.seg2 (F := Ideal)) (R2 m' c) (Proc.devRef .tc Cert.ReferenceIdeal.main_v1) = _
  reads
  exact r2_main_v1 m' c
theorem r4_main_v1 : R4 m' c (Proc.devRef .tc Cert.ReferenceIdeal.main_v1) = R1 m' c (Proc.devRef .tc Cert.ReferenceIdeal.main_v1) := by
  show after (Cert.ReferenceIdeal.ValueP.seg3 (F := Ideal)) (R3 m' c) (Proc.devRef .tc Cert.ReferenceIdeal.main_v1) = _
  reads
  exact r3_main_v1 m' c
theorem r2_main_v3 : R2 m' c (Proc.devRef .tc Cert.ReferenceIdeal.main_v3) = R1 m' c (Proc.devRef .tc Cert.ReferenceIdeal.main_v3) := by
  show after (Cert.ReferenceIdeal.ValueP.seg1 (F := Ideal)) (R1 m' c) (Proc.devRef .tc Cert.ReferenceIdeal.main_v3) = _
  reads
theorem r3_main_v3 : R3 m' c (Proc.devRef .tc Cert.ReferenceIdeal.main_v3) = R1 m' c (Proc.devRef .tc Cert.ReferenceIdeal.main_v3) := by
  show after (Cert.ReferenceIdeal.ValueP.seg2 (F := Ideal)) (R2 m' c) (Proc.devRef .tc Cert.ReferenceIdeal.main_v3) = _
  reads
  exact r2_main_v3 m' c
theorem r4_main_v3 : R4 m' c (Proc.devRef .tc Cert.ReferenceIdeal.main_v3) = R1 m' c (Proc.devRef .tc Cert.ReferenceIdeal.main_v3) := by
  show after (Cert.ReferenceIdeal.ValueP.seg3 (F := Ideal)) (R3 m' c) (Proc.devRef .tc Cert.ReferenceIdeal.main_v3) = _
  reads
  exact r3_main_v3 m' c

/-! ## The reference's dense stages, from any starting contents

Stated over a variable valuation and variable operand arrays: what each of the four short pieces leaves in its result
buffer, as the host operations it applies to the arrays it reads. -/

section RefStages

variable (U : Valuation Cert.ReferenceIdeal.τ Cert.ReferenceIdeal.sig (Elt Ideal))

/-- The first product. -/
theorem ref_dot1 (x : FVec Ideal Cert.ReferenceIdeal.S100000x256 .f32) (w : FVec Ideal Cert.ReferenceIdeal.S256x64 .f32)
    (hx : U (Proc.devRef .tc Cert.ReferenceIdeal.main_arg0) = x) (hw : U (Proc.devRef .tc Cert.ReferenceIdeal.main_arg2) = w) :
    after (Cert.ReferenceIdeal.ValueP.seg0 (F := Ideal)) U (Proc.devRef .tc Cert.ReferenceIdeal.main_v4) = Host.dotGeneral (F := Ideal) Cert.ReferenceIdeal.dot_S100000x256_S256x64_S100000x64_1_0_0_1_n_n none x w := by
  subst hx hw
  reads

/-- The first bias, add, and maximum with the zero constant. -/
theorem ref_relu (g : FVec Ideal Cert.ReferenceIdeal.S100000x64 .f32) (b : FVec Ideal Cert.ReferenceIdeal.S64 .f32)
    (hg : U (Proc.devRef .tc Cert.ReferenceIdeal.main_v43) = g) (hb : U (Proc.devRef .tc Cert.ReferenceIdeal.main_arg3) = b) :
    after (Cert.ReferenceIdeal.ValueP.seg2 (F := Ideal)) U (Proc.devRef .tc Cert.ReferenceIdeal.main_v47)
      = maximumf (addf g (broadcastInDim Cert.ReferenceIdeal.S100000x64 ![0, 1] Cert.ReferenceIdeal.Gen.bcast_S1x64_S100000x64_0_1
            (broadcastInDim Cert.ReferenceIdeal.S1x64 ![1] Cert.ReferenceIdeal.Gen.bcast_S64_S1x64_1 b)))
          (broadcastInDim Cert.ReferenceIdeal.S100000x64 ![] Cert.ReferenceIdeal.Gen.bcast_S_S100000x64 (constant (F := Ideal) Cert.ReferenceIdeal.S_ .f32 0x00000000#32)) := by
  subst hg hb
  reads
  rfl

/-- The second product. -/
theorem ref_dot2 (h : FVec Ideal Cert.ReferenceIdeal.S100000x64 .f32) (w : FVec Ideal Cert.ReferenceIdeal.S64x1 .f32)
    (hh : U (Proc.devRef .tc Cert.ReferenceIdeal.main_v47) = h) (hw : U (Proc.devRef .tc Cert.ReferenceIdeal.main_arg4) = w) :
    after (Cert.ReferenceIdeal.ValueP.seg3 (F := Ideal)) U (Proc.devRef .tc Cert.ReferenceIdeal.main_v48) = Host.dotGeneral (F := Ideal) Cert.ReferenceIdeal.dot_S100000x64_S64x1_S100000x1_1_0_0_1_n_n none h w := by
  subst hh hw
  reads

/-- The second bias, add, and the logistic function spelt as negate, exponential, one plus, one over. -/
theorem ref_logistic (g : FVec Ideal Cert.ReferenceIdeal.S100000x1 .f32) (b : FVec Ideal Cert.ReferenceIdeal.S1 .f32)
    (hg : U (Proc.devRef .tc Cert.ReferenceIdeal.main_v86) = g) (hb : U (Proc.devRef .tc Cert.ReferenceIdeal.main_arg5) = b) :
    after (Cert.ReferenceIdeal.ValueP.seg5 (F := Ideal)) U (Proc.devRef .tc Cert.ReferenceIdeal.main_v95)
      = Host.divf (F := Ideal) (broadcastInDim Cert.ReferenceIdeal.S100000x1 ![] Cert.ReferenceIdeal.Gen.bcast_S_S100000x1 (constant (F := Ideal) Cert.ReferenceIdeal.S_ .f32 0x3F800000#32))
          (addf (broadcastInDim Cert.ReferenceIdeal.S100000x1 ![] Cert.ReferenceIdeal.Gen.bcast_S_S100000x1 (constant (F := Ideal) Cert.ReferenceIdeal.S_ .f32 0x3F800000#32))
            (Host.exp (F := Ideal) (Host.negf (F := Ideal) (addf g (broadcastInDim Cert.ReferenceIdeal.S100000x1 ![0, 1] Cert.ReferenceIdeal.Gen.bcast_S1x1_S100000x1_0_1
              (broadcastInDim Cert.ReferenceIdeal.S1x1 ![1] Cert.ReferenceIdeal.Gen.bcast_S1_S1x1_1 b)))))) := by
  subst hg hb
  reads

end RefStages

end Cert.Bridge

end
-- ==== Proof.Aggregation1.lean ====
/-
  The first aggregation, compared as written. The kernel runs it as three stretches of host operations between its first
  two pipelines (the degree count and inverse square root; the select that zeroes empty rows; the two gathers, the
  scaling and the scatter-add); the reference runs the same 52 operations as one piece of its line.
-/
import proofs.«121171_j3934190044271_1_alg».proof.Proof.BridgeBase

set_option maxRecDepth 16384

noncomputable section

namespace Cert.Bridge

open Cert.KernelIdeal Cert.KernelIdeal.Gen
open Idealize.ShloMosaic Idealize.ShloMosaic.TcCoe Idealize.SL.Sem Idealize.ShloMosaic.StableHlo

set_option maxHeartbeats 8000000 in
/-- From any two starting contents that agree on the feature array and on the two index rows, the kernel's three
    stretches of host operations and the reference's piece leave equal aggregated arrays: they are the same operations. -/
theorem aggregation1 (Wk : Valuation τ sig (Elt Ideal)) (U : Valuation Cert.ReferenceIdeal.τ Cert.ReferenceIdeal.sig (Elt Ideal))
    (hf : Wk (Proc.devRef .tc main_v4) = U (Proc.devRef .tc Cert.ReferenceIdeal.main_v4))
    (hs : Wk (Proc.devRef .tc main_v1) = U (Proc.devRef .tc Cert.ReferenceIdeal.main_v1))
    (hd : Wk (Proc.devRef .tc main_v3) = U (Proc.devRef .tc Cert.ReferenceIdeal.main_v3)) :
    (after hostOps1_2 (after hostOps1_1 (after hostOps1 Wk))) (Proc.devRef .tc main_v43) = after (Cert.ReferenceIdeal.ValueP.seg1 (F := Ideal)) U (Proc.devRef .tc Cert.ReferenceIdeal.main_v43) := by
  reads
  rw [hf, hs, hd]
  rfl

end Cert.Bridge

end
-- ==== Proof.Layer1.lean ====
/-
  The first pipeline, read as one array. Its grid has 50 points; point t takes rows 2000·t … 2000·t + 1999 of the
  left operand (all 256 columns), the whole right operand (256 × 64), and writes back the 2000 × 64 block of their
  product into rows 2000·t … of the result. The body multiplies into a zero accumulator, so at the extended reals a
  stored entry is the plain sum over the contracted axis. The blocks tile the 100000 rows, hence the result array
  ends as the row-by-column sums of the two operands as the pipeline found them.
-/
import proofs.«121171_j3934190044271_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix2)

/-- Row i₀ of `a` times column i₁ of `b`, over the 256 contracted positions. -/
def rowsByCols (a : FVec Ideal S100000x256 .f32) (b : FVec Ideal S256x64 .f32) : FVec Ideal S100000x64 .f32 :=
  fun i => ∑ k : Fin 256, a (ix2 (n0 := 100000) (n1 := 256) (i 0) k) * b (ix2 (n0 := 256) (n1 := 64) k (i 1))

theorem zeros2 : (![0, 0] : Fin 2 → Nat) = fun _ => 0 := funext fun a => by fin_cases a <;> rfl

/-- The body's stored value at row p, column q of the block: the sum over k of the left block at (p, k) times the
    right block at (k, q). -/
theorem payload_apply (x0 : FVec Ideal S2000x256 .f32) (x1 : FVec Ideal S256x64 .f32) (p : Fin 2000) (q : Fin 64) :
    k0_pay1 (F := Ideal) x0 x1 (ix2 (n0 := 2000) (n1 := 64) p q)
      = ∑ k : Fin 256, x0 (ix2 (n0 := 2000) (n1 := 256) p k) * x1 (ix2 (n0 := 256) (n1 := 64) k q) := by
  unfold k0_pay1
  refine (Ideal.matmul_constant_zero_apply dot_S2000x256_S256x64_S2000x64_1_0_0_1_n_n none x0 x1 (ix2 (n0 := 2000) (n1 := 64) p q)).trans ?_
  rw [← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx (ix2 (n0 := 2000) (n1 := 64) p q) ((ValueIdx.contrEquiv1 dot_S2000x256_S256x64_S2000x64_1_0_0_1_n_n 256 rfl rfl).symm k)
      = ix2 (n0 := 2000) (n1 := 256) p k := funext fun a => Fin.ext (by
    match a with
    | ⟨0, _⟩ =>
      show (dot_S2000x256_S256x64_S2000x64_1_0_0_1_n_n.lhsIdx (ix2 (n0 := 2000) (n1 := 64) p q) _ 0).val = p.val
      unfold DotDims.lhsIdx
      rw [dif_neg (show ¬(0 : Fin S2000x256.rank) ∈ dot_S2000x256_S256x64_S2000x64_1_0_0_1_n_n.lhsBatch by decide),
        dif_pos (show (0 : Fin S2000x256.rank) ∈ dot_S2000x256_S256x64_S2000x64_1_0_0_1_n_n.lhsNonContracting by decide)]
      rfl
    | ⟨1, _⟩ => exact (dot_S2000x256_S256x64_S2000x64_1_0_0_1_n_n.lhsIdx_val_of_single rfl _ _).trans hk)
  have er : dot_S2000x256_S256x64_S2000x64_1_0_0_1_n_n.rhsIdx (ix2 (n0 := 2000) (n1 := 64) p q) ((ValueIdx.contrEquiv1 dot_S2000x256_S256x64_S2000x64_1_0_0_1_n_n 256 rfl rfl).symm k)
      = ix2 (n0 := 256) (n1 := 64) k q := funext fun a => Fin.ext (by
    match a with
    | ⟨0, _⟩ => exact (dot_S2000x256_S256x64_S2000x64_1_0_0_1_n_n.rhsIdx_val_of_single rfl _ _).trans hk
    | ⟨1, _⟩ =>
      show (dot_S2000x256_S256x64_S2000x64_1_0_0_1_n_n.rhsIdx (ix2 (n0 := 2000) (n1 := 64) p q) _ 1).val = q.val
      unfold DotDims.rhsIdx
      rw [dif_neg (show ¬(1 : Fin S256x64.rank) ∈ dot_S2000x256_S256x64_S2000x64_1_0_0_1_n_n.rhsBatch by decide),
        dif_pos (show (1 : Fin S256x64.rank) ∈ dot_S2000x256_S256x64_S2000x64_1_0_0_1_n_n.rhsNonContracting by decide)]
      rfl)
  rw [el, er]

/-- Where each window's block sits at point t: the left operand's and the result's row block is t, every other block
    coordinate is 0. -/
theorem blocks_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Reading the two operand arrays through point t's blocks at (p, k) and (k, q) is reading them at the row and column
    that entry (p, q) of the result block has in the result array. -/
theorem block_read (A : FVec Ideal S100000x256 .f32) (B : FVec Ideal S256x64 .f32) (t : Fin cfg0.N) (p : Fin 2000) (q : Fin 64) :
    (∑ k : Fin 256, A (((cfg0.win 0).blk t).view.emb (ix2 (n0 := 2000) (n1 := 256) p k))
        * B (((cfg0.win 1).blk t).view.emb (ix2 (n0 := 256) (n1 := 64) k q)))
      = rowsByCols A B (((cfg0.win 2).blk t).view.emb (ix2 (n0 := 2000) (n1 := 64) p q)) := by
  obtain ⟨e0, e1, e2, e3, e4, e5⟩ := blocks_at t
  unfold rowsByCols
  refine Finset.sum_congr rfl fun k _ => ?_
  have h0 : ((cfg0.win 0).blk t).view.emb (ix2 (n0 := 2000) (n1 := 256) p k)
      = ix2 (n0 := 100000) (n1 := 256) ((((cfg0.win 2).blk t).view.emb (ix2 (n0 := 2000) (n1 := 64) p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 256 + 1 * k.val = k.val; omega
  have h1 : ((cfg0.win 1).blk t).view.emb (ix2 (n0 := 256) (n1 := 64) k q)
      = ix2 (n0 := 256) (n1 := 64) k ((((cfg0.win 2).blk t).view.emb (ix2 (n0 := 2000) (n1 := 64) p q)) 1) := by
    funext a; apply Fin.ext
    match a with
    | ⟨0, _⟩ => show win0_1.index t (0 : Fin 2) * 256 + 1 * k.val = k.val; omega
    | ⟨1, _⟩ => show win0_1.index t (1 : Fin 2) * 64 + 1 * q.val = win0_2.index t (1 : Fin 2) * 64 + 1 * q.val; omega
  rw [h0, h1]

variable (V : (c : Dev nD) → (b : Ref sig .tc) → Buf (Elt Ideal) ((c : Thread nD τ).loc b))

/-- What point t writes back is block t of the row-by-column sums of the two operand arrays. -/
theorem flushed_eq (c : Dev nD) (t : Fin cfg0.N) :
    (dat0 V c).flushed 2 t = ((cfg0.win 2).blk t).view.read (Elt Ideal) (rowsByCols (V c main_arg0) (V c main_arg2)) := by
  show (cfg0.win 2).cut (grid0.coords t) ((dat0 V c).after 2 t) = _
  rw [after0_2]
  unfold out0_2
  rw [View.canon_unit_zero zeros2]
  simp only [View.ld_unit_zero (S := S2000x256) zeros2, View.ld_unit_zero (S := S256x64) zeros2]
  funext j
  obtain ⟨p, q, rfl⟩ : ∃ (p : Fin 2000) (q : Fin 64), j = ix2 (n0 := 2000) (n1 := 64) p q := ⟨j 0, j 1, ValueIdx.eq_ix2 j⟩
  refine (payload_apply (iblk0 V c 0 t) (iblk0 V c 1 t) p q).trans ?_
  exact block_read (V c main_arg0) (V c main_arg2) t p q

/-- An index of the result array lies in point t's block iff each coordinate lies in the block's range on its axis. -/
theorem mem_blk (t : Fin cfg0.N) (i : S100000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v4).slice (win0_2.rect t)).set ↔ _
  rw [View.set_slice_whole, Rect.mem_set_unit]
  exact Iff.rfl

/-- Row r of the result lies in the block of point r / 2000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 50 := N_0
  let t : Fin cfg0.N := ⟨(i 0).val / 2000, by show (i 0).val / 2000 < grid0.N; omega⟩
  obtain ⟨e0, e1, e2, e3, e4, e5⟩ := blocks_at t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The result array after the pipeline: the row-by-column sums of the operand arrays as the pipeline found them. -/
theorem result (c : Dev nD) :
    (dat0 V c).arrAt 2 cfg0.N = rowsByCols (V c main_arg0) (V c main_arg2) :=
  (dat0 V c).arrAt_eq_of_cover 2 (rowsByCols (V c main_arg0) (V c main_arg2)) (fun t _ => flushed_eq V c t) covered

end Cert.KernelIdeal.Layer1

end
-- ==== Proof.Layer1Act.lean ====
/-
  The second pipeline, read as one array. Point t takes rows 2000·t … 2000·t + 1999 of the aggregated features
  (64 columns) and the one-row bias (1 × 64), adds the bias to every row, takes the maximum with zero, and writes the
  2000 × 64 block back to the same rows of the result. The blocks tile the 100000 rows, so the result array ends as
  max(a[r, q] + b[0, q], 0) at every (r, q), a and b the two operand arrays as the pipeline found them.
-/
import proofs.«121171_j3934190044271_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1Act

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix2)

/-- max(a[r, q] + b[0, q], 0). -/
def biasMax (a : FVec Ideal S100000x64 .f32) (b : FVec Ideal S1x64 .f32) : FVec Ideal S100000x64 .f32 :=
  fun i => FloatOps.maximumf (F := Ideal) (FloatOps.addf (F := Ideal) (a i) (b (ix2 (n0 := 1) (n1 := 64) (0 : Fin 1) (i 1)))) (FloatOps.ofBits (F := Ideal) .f32 0x00000000#32)

theorem zeros2 : (![0, 0] : Fin 2 → Nat) = fun _ => 0 := funext fun a => by fin_cases a <;> rfl

/-- The body's stored value at (p, q) of the block, from the input block there and the bias row at q. -/
theorem payload_apply (x0 : FVec Ideal S2000x64 .f32) (x1 : FVec Ideal S1x64 .f32) (p : Fin 2000) (q : Fin 64) :
    k1_pay1 (F := Ideal) x0 x1 (ix2 (n0 := 2000) (n1 := 64) p q)
      = FloatOps.maximumf (F := Ideal) (FloatOps.addf (F := Ideal) (x0 (ix2 (n0 := 2000) (n1 := 64) p q)) (x1 (ix2 (n0 := 1) (n1 := 64) (0 : Fin 1) q))) (FloatOps.ofBits (F := Ideal) .f32 0x00000000#32) := by
  unfold k1_pay1
  show FloatOps.maximumf (F := Ideal) (FloatOps.addf (F := Ideal) (shapeCast S2000x64 x0 shapeCasts_S2000x64_S2000x64 (ix2 (n0 := 2000) (n1 := 64) p q)) (broadcastTo S2000x64 (shapeCast S1x64 x1 shapeCasts_S1x64_S1x64) broadcasts_S1x64_S2000x64 (ix2 (n0 := 2000) (n1 := 64) p q))) (FloatOps.ofBits (F := Ideal) .f32 0x00000000#32) = _
  rw [shapeCast_self, shapeCast_self]
  exact congrArg (fun z => FloatOps.maximumf (F := Ideal) (FloatOps.addf (F := Ideal) (x0 (ix2 (n0 := 2000) (n1 := 64) p q)) (z)) (FloatOps.ofBits (F := Ideal) .f32 0x00000000#32))
    (ValueIdx.broadcastTo_1b_ab_apply x1 broadcasts_S1x64_S2000x64 p q)

/-- Where each window's block sits at point t: the input's and the result's row block is t, the rest 0. -/
theorem blocks_at : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Reading the input array through point t's block at (p, q), and the bias through its block at (0, q), is reading
    them where entry (p, q) of the result block sits in the result array. -/
theorem block_read (A : FVec Ideal S100000x64 .f32) (B : FVec Ideal S1x64 .f32) (t : Fin cfg1.N) (p : Fin 2000) (q : Fin 64) :
    FloatOps.maximumf (F := Ideal) (FloatOps.addf (F := Ideal) (A (((cfg1.win 0).blk t).view.emb (ix2 (n0 := 2000) (n1 := 64) p q))) (B (((cfg1.win 1).blk t).view.emb (ix2 (n0 := 1) (n1 := 64) (0 : Fin 1) q)))) (FloatOps.ofBits (F := Ideal) .f32 0x00000000#32)
      = biasMax A B (((cfg1.win 2).blk t).view.emb (ix2 (n0 := 2000) (n1 := 64) p q)) := by
  obtain ⟨e0, e1, e2, e3, e4, e5⟩ := blocks_at t
  unfold biasMax
  have h0 : ((cfg1.win 0).blk t).view.emb (ix2 (n0 := 2000) (n1 := 64) p q)
      = ((cfg1.win 2).blk t).view.emb (ix2 (n0 := 2000) (n1 := 64) p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 64 + 1 * q.val = win1_2.index t (1 : Fin 2) * 64 + 1 * q.val; omega
  have h1 : ((cfg1.win 1).blk t).view.emb (ix2 (n0 := 1) (n1 := 64) (0 : Fin 1) q)
      = ix2 (n0 := 1) (n1 := 64) (0 : Fin 1) ((((cfg1.win 2).blk t).view.emb (ix2 (n0 := 2000) (n1 := 64) p q)) 1) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [h0, h1]

variable (V : (c : Dev nD) → (b : Ref sig .tc) → Buf (Elt Ideal) ((c : Thread nD τ).loc b))

/-- What point t writes back is block t of `biasMax` of the two operand arrays. -/
theorem flushed_eq (c : Dev nD) (t : Fin cfg1.N) :
    (dat1 V c).flushed 2 t = ((cfg1.win 2).blk t).view.read (Elt Ideal) (biasMax (V c main_v43) (V c main_v44)) := by
  show (cfg1.win 2).cut (grid1.coords t) ((dat1 V c).after 2 t) = _
  rw [after1_2]
  unfold out1_2
  rw [View.canon_unit_zero zeros2]
  simp only [View.ld_unit_zero (S := S2000x64) zeros2, View.ld_unit_zero (S := S1x64) zeros2]
  funext j
  obtain ⟨p, q, rfl⟩ : ∃ (p : Fin 2000) (q : Fin 64), j = ix2 (n0 := 2000) (n1 := 64) p q := ⟨j 0, j 1, ValueIdx.eq_ix2 j⟩
  refine (payload_apply (iblk1 V c 0 t) (iblk1 V c 1 t) p q).trans ?_
  exact block_read (V c main_v43) (V c main_v44) t p q

/-- An index of the result array lies in point t's block iff each coordinate lies in the block's range on its axis. -/
theorem mem_blk (t : Fin cfg1.N) (i : S100000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v45).slice (win1_2.rect t)).set ↔ _
  rw [View.set_slice_whole, Rect.mem_set_unit]
  exact Iff.rfl

/-- Row r of the result lies in the block of point r / 2000. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 50 := N_1
  let t : Fin cfg1.N := ⟨(i 0).val / 2000, by show (i 0).val / 2000 < grid1.N; omega⟩
  obtain ⟨e0, e1, e2, e3, e4, e5⟩ := blocks_at t
  have ht : t.val = (i 0).val / 2000 := rfl
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- The result array after the pipeline. -/
theorem result (c : Dev nD) :
    (dat1 V c).arrAt 2 cfg1.N = biasMax (V c main_v43) (V c main_v44) :=
  (dat1 V c).arrAt_eq_of_cover 2 (biasMax (V c main_v43) (V c main_v44)) (fun t _ => flushed_eq V c t) covered

end Cert.KernelIdeal.Layer1Act

end
-- ==== Proof.Layer2.lean ====
/-
  The third pipeline, read as one array. Point t takes rows 2000·t … 2000·t + 1999 of the hidden features (64
  columns), the whole 64 × 1 weight column, and writes back the 2000 × 1 block of their product to the same rows of
  the result. The body multiplies into a zero accumulator, so at the extended reals a stored entry is the plain sum over
  the 64 contracted positions; the blocks tile the 100000 rows.
-/
import proofs.«121171_j3934190044271_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix2)

/-- Row i₀ of `a` times column i₁ of `b`, over the 64 contracted positions. -/
def rowsByCols (a : FVec Ideal S100000x64 .f32) (b : FVec Ideal S64x1 .f32) : FVec Ideal S100000x1 .f32 :=
  fun i => ∑ k : Fin 64, a (ix2 (n0 := 100000) (n1 := 64) (i 0) k) * b (ix2 (n0 := 64) (n1 := 1) k (i 1))

theorem zeros2 : (![0, 0] : Fin 2 → Nat) = fun _ => 0 := funext fun a => by fin_cases a <;> rfl

/-- The body's stored value at row p, column q of the block: the sum over k of the left block at (p, k) times the
    right block at (k, q). -/
theorem payload_apply (x0 : FVec Ideal S2000x64 .f32) (x1 : FVec Ideal S64x1 .f32) (p : Fin 2000) (q : Fin 1) :
    k2_pay1 (F := Ideal) x0 x1 (ix2 (n0 := 2000) (n1 := 1) p q)
      = ∑ k : Fin 64, x0 (ix2 (n0 := 2000) (n1 := 64) p k) * x1 (ix2 (n0 := 64) (n1 := 1) k q) := by
  unfold k2_pay1
  show FloatOps.matmul dot_S2000x64_S64x1_S2000x1_1_0_0_1_n_n none (shapeCast S2000x64 x0 shapeCasts_S2000x64_S2000x64) x1 (constant S2000x1 .f32 0x00000000#32) (ix2 (n0 := 2000) (n1 := 1) p q) = _
  rw [shapeCast_self]
  refine (Ideal.matmul_constant_zero_apply dot_S2000x64_S64x1_S2000x1_1_0_0_1_n_n none x0 x1 (ix2 (n0 := 2000) (n1 := 1) p q)).trans ?_
  rw [← Equiv.sum_comp (ValueIdx.contrEquiv1 dot_S2000x64_S64x1_S2000x1_1_0_0_1_n_n 64 rfl rfl).symm]
  refine Finset.sum_congr rfl fun k _ => ?_
  have hk := ValueIdx.contrEquiv1_symm_val dot_S2000x64_S64x1_S2000x1_1_0_0_1_n_n 64 rfl rfl k
  have el : dot_S2000x64_S64x1_S2000x1_1_0_0_1_n_n.lhsIdx (ix2 (n0 := 2000) (n1 := 1) p q) ((ValueIdx.contrEquiv1 dot_S2000x64_S64x1_S2000x1_1_0_0_1_n_n 64 rfl rfl).symm k)
      = ix2 (n0 := 2000) (n1 := 64) p k := funext fun a => Fin.ext (by
    match a with
    | ⟨0, _⟩ =>
      show (dot_S2000x64_S64x1_S2000x1_1_0_0_1_n_n.lhsIdx (ix2 (n0 := 2000) (n1 := 1) p q) _ 0).val = p.val
      unfold DotDims.lhsIdx
      rw [dif_neg (show ¬(0 : Fin S2000x64.rank) ∈ dot_S2000x64_S64x1_S2000x1_1_0_0_1_n_n.lhsBatch by decide),
        dif_pos (show (0 : Fin S2000x64.rank) ∈ dot_S2000x64_S64x1_S2000x1_1_0_0_1_n_n.lhsNonContracting by decide)]
      rfl
    | ⟨1, _⟩ => exact (dot_S2000x64_S64x1_S2000x1_1_0_0_1_n_n.lhsIdx_val_of_single rfl _ _).trans hk)
  have er : dot_S2000x64_S64x1_S2000x1_1_0_0_1_n_n.rhsIdx (ix2 (n0 := 2000) (n1 := 1) p q) ((ValueIdx.contrEquiv1 dot_S2000x64_S64x1_S2000x1_1_0_0_1_n_n 64 rfl rfl).symm k)
      = ix2 (n0 := 64) (n1 := 1) k q := funext fun a => Fin.ext (by
    match a with
    | ⟨0, _⟩ => exact (dot_S2000x64_S64x1_S2000x1_1_0_0_1_n_n.rhsIdx_val_of_single rfl _ _).trans hk
    | ⟨1, _⟩ =>
      show (dot_S2000x64_S64x1_S2000x1_1_0_0_1_n_n.rhsIdx (ix2 (n0 := 2000) (n1 := 1) p q) _ 1).val = q.val
      unfold DotDims.rhsIdx
      rw [dif_neg (show ¬(1 : Fin S64x1.rank) ∈ dot_S2000x64_S64x1_S2000x1_1_0_0_1_n_n.rhsBatch by decide),
        dif_pos (show (1 : Fin S64x1.rank) ∈ dot_S2000x64_S64x1_S2000x1_1_0_0_1_n_n.rhsNonContracting by decide)]
      rfl)
  rw [el, er]

/-- Where each window's block sits at point t: the left operand's and the result's row block is t, every other block
    coordinate is 0. -/
theorem blocks_at : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Reading the two operand arrays through point t's blocks at (p, k) and (k, q) is reading them at the row and column
    that entry (p, q) of the result block has in the result array. -/
theorem block_read (A : FVec Ideal S100000x64 .f32) (B : FVec Ideal S64x1 .f32) (t : Fin cfg2.N) (p : Fin 2000) (q : Fin 1) :
    (∑ k : Fin 64, A (((cfg2.win 0).blk t).view.emb (ix2 (n0 := 2000) (n1 := 64) p k))
        * B (((cfg2.win 1).blk t).view.emb (ix2 (n0 := 64) (n1 := 1) k q)))
      = rowsByCols A B (((cfg2.win 2).blk t).view.emb (ix2 (n0 := 2000) (n1 := 1) p q)) := by
  obtain ⟨e0, e1, e2, e3, e4, e5⟩ := blocks_at t
  unfold rowsByCols
  refine Finset.sum_congr rfl fun k _ => ?_
  have h0 : ((cfg2.win 0).blk t).view.emb (ix2 (n0 := 2000) (n1 := 64) p k)
      = ix2 (n0 := 100000) (n1 := 64) ((((cfg2.win 2).blk t).view.emb (ix2 (n0 := 2000) (n1 := 1) p q)) 0) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 64 + 1 * k.val = k.val; omega
  have h1 : ((cfg2.win 1).blk t).view.emb (ix2 (n0 := 64) (n1 := 1) k q)
      = ix2 (n0 := 64) (n1 := 1) k ((((cfg2.win 2).blk t).view.emb (ix2 (n0 := 2000) (n1 := 1) p q)) 1) := by
    funext a; apply Fin.ext
    match a with
    | ⟨0, _⟩ => show win2_1.index t (0 : Fin 2) * 64 + 1 * k.val = k.val; omega
    | ⟨1, _⟩ => show win2_1.index t (1 : Fin 2) * 1 + 1 * q.val = win2_2.index t (1 : Fin 2) * 1 + 1 * q.val; omega
  rw [h0, h1]

variable (V : (c : Dev nD) → (b : Ref sig .tc) → Buf (Elt Ideal) ((c : Thread nD τ).loc b))

/-- What point t writes back is block t of the row-by-column sums of the two operand arrays. -/
theorem flushed_eq (c : Dev nD) (t : Fin cfg2.N) :
    (dat2 V c).flushed 2 t = ((cfg2.win 2).blk t).view.read (Elt Ideal) (rowsByCols (V c main_v45) (V c main_arg4)) := by
  show (cfg2.win 2).cut (grid2.coords t) ((dat2 V c).after 2 t) = _
  rw [after2_2]
  unfold out2_2
  rw [View.canon_unit_zero zeros2]
  simp only [View.ld_unit_zero (S := S2000x64) zeros2, View.ld_unit_zero (S := S64x1) zeros2]
  funext j
  obtain ⟨p, q, rfl⟩ : ∃ (p : Fin 2000) (q : Fin 1), j = ix2 (n0 := 2000) (n1 := 1) p q := ⟨j 0, j 1, ValueIdx.eq_ix2 j⟩
  refine (payload_apply (iblk2 V c 0 t) (iblk2 V c 1 t) p q).trans ?_
  exact block_read (V c main_v45) (V c main_arg4) t p q

/-- An index of the result array lies in point t's block iff each coordinate lies in the block's range on its axis. -/
theorem mem_blk (t : Fin cfg2.N) (i : S100000x1.Idx) :
    i ∈ ((cfg2.win 2).blk t).view.set ↔ ∀ a : Fin 2, win2_2.index t a * S2000x1.size a ≤ (i a).val
      ∧ (i a).val < win2_2.index t a * S2000x1.size a + S2000x1.size a := by
  show i ∈ ((View.whole main_v46).slice (win2_2.rect t)).set ↔ _
  rw [View.set_slice_whole, Rect.mem_set_unit]
  exact Iff.rfl

/-- Row r of the result lies in the block of point r / 2000. -/
theorem covered (i : S100000x1.Idx) :
    ∃ t : Fin cfg2.N, (cfg2.win 2).flush t = true ∧ i ∈ ((cfg2.win 2).blk t).view.set := by
  have hi0 : (i 0).val < 100000 := (i 0).isLt
  have hi1 : (i 1).val < 1 := (i 1).isLt
  have hN : grid2.N = 50 := N_2
  let t : Fin cfg2.N := ⟨(i 0).val / 2000, by show (i 0).val / 2000 < grid2.N; omega⟩
  obtain ⟨e0, e1, e2, e3, e4, e5⟩ := blocks_at t
  have ht : t.val = (i 0).val / 2000 := rfl
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 1 ≤ (i 1).val ∧ (i 1).val < win2_2.index t (1 : Fin 2) * 1 + 1; omega

/-- The result array after the pipeline: the row-by-column sums of the operand arrays as the pipeline found them. -/
theorem result (c : Dev nD) :
    (dat2 V c).arrAt 2 cfg2.N = rowsByCols (V c main_v45) (V c main_arg4) :=
  (dat2 V c).arrAt_eq_of_cover 2 (rowsByCols (V c main_v45) (V c main_arg4)) (fun t _ => flushed_eq V c t) covered

end Cert.KernelIdeal.Layer2

end
-- ==== Proof.Layer2Act.lean ====
/-
  The fourth pipeline, read as one array. Point t takes rows 2000·t … 2000·t + 1999 of the aggregated scores (one
  column) and the 1 × 1 bias, adds the bias to every row, applies the logistic function, and writes the 2000 × 1 block
  back to the same rows of the result. The blocks tile the 100000 rows, so the result array ends as
  logistic(a[r, 0] + b[0, 0]) at every row r, a and b the two operand arrays as the pipeline found them.
-/
import proofs.«121171_j3934190044271_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2Act

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix2)

/-- logistic(a[r, q] + b[0, q]) (q ranges over the one column). -/
def biasLogistic (a : FVec Ideal S100000x1 .f32) (b : FVec Ideal S1x1 .f32) : FVec Ideal S100000x1 .f32 :=
  fun i => FloatOps.logistic (F := Ideal) (FloatOps.addf (F := Ideal) (a i) (b (ix2 (n0 := 1) (n1 := 1) (0 : Fin 1) (i 1))))

theorem zeros2 : (![0, 0] : Fin 2 → Nat) = fun _ => 0 := funext fun a => by fin_cases a <;> rfl

/-- The body's stored value at (p, q) of the block, from the input block there and the bias row at q. -/
theorem payload_apply (x0 : FVec Ideal S2000x1 .f32) (x1 : FVec Ideal S1x1 .f32) (p : Fin 2000) (q : Fin 1) :
    k3_pay1 (F := Ideal) x0 x1 (ix2 (n0 := 2000) (n1 := 1) p q)
      = FloatOps.logistic (F := Ideal) (FloatOps.addf (F := Ideal) (x0 (ix2 (n0 := 2000) (n1 := 1) p q)) (x1 (ix2 (n0 := 1) (n1 := 1) (0 : Fin 1) q))) := by
  unfold k3_pay1
  show FloatOps.logistic (F := Ideal) (FloatOps.addf (F := Ideal) (shapeCast S2000x1 x0 shapeCasts_S2000x1_S2000x1 (ix2 (n0 := 2000) (n1 := 1) p q)) (broadcastTo S2000x1 (shapeCast S1x1 x1 shapeCasts_S1x1_S1x1) broadcasts_S1x1_S2000x1 (ix2 (n0 := 2000) (n1 := 1) p q))) = _
  rw [shapeCast_self, shapeCast_self]
  exact congrArg (fun z => FloatOps.logistic (F := Ideal) (FloatOps.addf (F := Ideal) (x0 (ix2 (n0 := 2000) (n1 := 1) p q)) (z)))
    (ValueIdx.broadcastTo_1b_ab_apply x1 broadcasts_S1x1_S2000x1 p q)

/-- Where each window's block sits at point t: the input's and the result's row block is t, the rest 0. -/
theorem blocks_at : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Reading the input array through point t's block at (p, q), and the bias through its block at (0, q), is reading
    them where entry (p, q) of the result block sits in the result array. -/
theorem block_read (A : FVec Ideal S100000x1 .f32) (B : FVec Ideal S1x1 .f32) (t : Fin cfg3.N) (p : Fin 2000) (q : Fin 1) :
    FloatOps.logistic (F := Ideal) (FloatOps.addf (F := Ideal) (A (((cfg3.win 0).blk t).view.emb (ix2 (n0 := 2000) (n1 := 1) p q))) (B (((cfg3.win 1).blk t).view.emb (ix2 (n0 := 1) (n1 := 1) (0 : Fin 1) q))))
      = biasLogistic A B (((cfg3.win 2).blk t).view.emb (ix2 (n0 := 2000) (n1 := 1) p q)) := by
  obtain ⟨e0, e1, e2, e3, e4, e5⟩ := blocks_at t
  unfold biasLogistic
  have h0 : ((cfg3.win 0).blk t).view.emb (ix2 (n0 := 2000) (n1 := 1) p q)
      = ((cfg3.win 2).blk t).view.emb (ix2 (n0 := 2000) (n1 := 1) p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 1 + 1 * q.val = win3_2.index t (1 : Fin 2) * 1 + 1 * q.val; omega
  have h1 : ((cfg3.win 1).blk t).view.emb (ix2 (n0 := 1) (n1 := 1) (0 : Fin 1) q)
      = ix2 (n0 := 1) (n1 := 1) (0 : Fin 1) ((((cfg3.win 2).blk t).view.emb (ix2 (n0 := 2000) (n1 := 1) p q)) 1) := by
    funext a; apply Fin.ext
    match a with
    | ⟨0, _⟩ => show win3_1.index t (0 : Fin 2) * 1 + 1 * 0 = 0; omega
    | ⟨1, _⟩ => show win3_1.index t (1 : Fin 2) * 1 + 1 * q.val = win3_2.index t (1 : Fin 2) * 1 + 1 * q.val; omega
  rw [h0, h1]

variable (V : (c : Dev nD) → (b : Ref sig .tc) → Buf (Elt Ideal) ((c : Thread nD τ).loc b))

/-- What point t writes back is block t of `biasLogistic` of the two operand arrays. -/
theorem flushed_eq (c : Dev nD) (t : Fin cfg3.N) :
    (dat3 V c).flushed 2 t = ((cfg3.win 2).blk t).view.read (Elt Ideal) (biasLogistic (V c main_v84) (V c main_v85)) := by
  show (cfg3.win 2).cut (grid3.coords t) ((dat3 V c).after 2 t) = _
  rw [after3_2]
  unfold out3_2
  rw [View.canon_unit_zero zeros2]
  simp only [View.ld_unit_zero (S := S2000x1) zeros2, View.ld_unit_zero (S := S1x1) zeros2]
  funext j
  obtain ⟨p, q, rfl⟩ : ∃ (p : Fin 2000) (q : Fin 1), j = ix2 (n0 := 2000) (n1 := 1) p q := ⟨j 0, j 1, ValueIdx.eq_ix2 j⟩
  refine (payload_apply (iblk3 V c 0 t) (iblk3 V c 1 t) p q).trans ?_
  exact block_read (V c main_v84) (V c main_v85) t p q

/-- An index of the result array lies in point t's block iff each coordinate lies in the block's range on its axis. -/
theorem mem_blk (t : Fin cfg3.N) (i : S100000x1.Idx) :
    i ∈ ((cfg3.win 2).blk t).view.set ↔ ∀ a : Fin 2, win3_2.index t a * S2000x1.size a ≤ (i a).val
      ∧ (i a).val < win3_2.index t a * S2000x1.size a + S2000x1.size a := by
  show i ∈ ((View.whole main_v86).slice (win3_2.rect t)).set ↔ _
  rw [View.set_slice_whole, Rect.mem_set_unit]
  exact Iff.rfl

/-- Row r of the result lies in the block of point r / 2000. -/
theorem covered (i : S100000x1.Idx) :
    ∃ t : Fin cfg3.N, (cfg3.win 2).flush t = true ∧ i ∈ ((cfg3.win 2).blk t).view.set := by
  have hi0 : (i 0).val < 100000 := (i 0).isLt
  have hi1 : (i 1).val < 1 := (i 1).isLt
  have hN : grid3.N = 50 := N_3
  let t : Fin cfg3.N := ⟨(i 0).val / 2000, by show (i 0).val / 2000 < grid3.N; omega⟩
  obtain ⟨e0, e1, e2, e3, e4, e5⟩ := blocks_at t
  have ht : t.val = (i 0).val / 2000 := rfl
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 1 ≤ (i 1).val ∧ (i 1).val < win3_2.index t (1 : Fin 2) * 1 + 1; omega

/-- The result array after the pipeline. -/
theorem result (c : Dev nD) :
    (dat3 V c).arrAt 2 cfg3.N = biasLogistic (V c main_v84) (V c main_v85) :=
  (dat3 V c).arrAt_eq_of_cover 2 (biasLogistic (V c main_v84) (V c main_v85)) (fun t _ => flushed_eq V c t) covered

end Cert.KernelIdeal.Layer2Act

end
-- ==== Proof.RefOps.lean ====
/-
  Each pipeline's array, as a function of the arrays it found, is the host operation the reference applies at that
  place. A row-by-column sum over the contracted axis is the host's whole matrix product read at an index. The
  bias-and-maximum array is the reference's chain "bias broadcast to one row, that row broadcast over all rows, add,
  maximum with a zero constant". The bias-and-logistic array is the reference's chain "broadcast bias, add, negate,
  exponential, one plus, one over": at the extended reals the logistic function is by definition 1 / (1 + e^(-x)), with
  its values at the two infinities, so no finiteness is needed.
-/
import proofs.«121171_j3934190044271_1_alg».proof.ReferenceIdeal
import proofs.«121171_j3934190044271_1_alg».proof.Proof.Gen.ReferenceIdeal
import proofs.«121171_j3934190044271_1_alg».proof.Proof.Layer1
import proofs.«121171_j3934190044271_1_alg».proof.Proof.Layer1Act
import proofs.«121171_j3934190044271_1_alg».proof.Proof.Layer2
import proofs.«121171_j3934190044271_1_alg».proof.Proof.Layer2Act
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.TcCoe
open Idealize.ShloMosaic.ValueIdx (ix1 ix2)

/-- The reference's first product: [100000, 256] by [256, 64], one contracted axis. -/
abbrev dims1 := Cert.ReferenceIdeal.dot_S100000x256_S256x64_S100000x64_1_0_0_1_n_n
/-- The reference's second product: [100000, 64] by [64, 1], one contracted axis. -/
abbrev dims2 := Cert.ReferenceIdeal.dot_S100000x64_S64x1_S100000x1_1_0_0_1_n_n

/-- The first pipeline's array is the reference's first product. -/
theorem layer1_eq (x : FVec Ideal Cert.ReferenceIdeal.S100000x256 .f32) (w : FVec Ideal Cert.ReferenceIdeal.S256x64 .f32) :
    Cert.KernelIdeal.Layer1.rowsByCols x w = Host.dotGeneral (F := Ideal) dims1 none x w := by
  funext i
  obtain ⟨r, q, rfl⟩ : ∃ (r : Fin 100000) (q : Fin 64), i = ix2 (n0 := 100000) (n1 := 64) r q := ⟨i 0, i 1, ValueIdx.eq_ix2 i⟩
  symm
  simp only [Host.dotGeneral]
  rw [Ideal.dotGeneral_apply, ← Equiv.sum_comp (ValueIdx.contrEquiv1 dims1 256 rfl rfl).symm]
  show _ = ∑ k : Fin 256, x (ix2 (n0 := 100000) (n1 := 256) r k) * w (ix2 (n0 := 256) (n1 := 64) k q)
  refine Finset.sum_congr rfl fun k _ => ?_
  have hk := ValueIdx.contrEquiv1_symm_val dims1 256 rfl rfl k
  have el : dims1.lhsIdx (ix2 (n0 := 100000) (n1 := 64) r q) ((ValueIdx.contrEquiv1 dims1 256 rfl rfl).symm k)
      = ix2 (n0 := 100000) (n1 := 256) r k := funext fun a => Fin.ext (by
    match a with
    | ⟨0, _⟩ =>
      show (dims1.lhsIdx (ix2 (n0 := 100000) (n1 := 64) r q) _ 0).val = r.val
      unfold DotDims.lhsIdx
      rw [dif_neg (show ¬(0 : Fin Cert.ReferenceIdeal.S100000x256.rank) ∈ dims1.lhsBatch by decide),
        dif_pos (show (0 : Fin Cert.ReferenceIdeal.S100000x256.rank) ∈ dims1.lhsNonContracting by decide)]
      rfl
    | ⟨1, _⟩ => exact (dims1.lhsIdx_val_of_single rfl _ _).trans hk)
  have er : dims1.rhsIdx (ix2 (n0 := 100000) (n1 := 64) r q) ((ValueIdx.contrEquiv1 dims1 256 rfl rfl).symm k)
      = ix2 (n0 := 256) (n1 := 64) k q := funext fun a => Fin.ext (by
    match a with
    | ⟨0, _⟩ => exact (dims1.rhsIdx_val_of_single rfl _ _).trans hk
    | ⟨1, _⟩ =>
      show (dims1.rhsIdx (ix2 (n0 := 100000) (n1 := 64) r q) _ 1).val = q.val
      unfold DotDims.rhsIdx
      rw [dif_neg (show ¬(1 : Fin Cert.ReferenceIdeal.S256x64.rank) ∈ dims1.rhsBatch by decide),
        dif_pos (show (1 : Fin Cert.ReferenceIdeal.S256x64.rank) ∈ dims1.rhsNonContracting by decide)]
      rfl)
  rw [el, er]

/-- The third pipeline's array is the reference's second product. -/
theorem layer2_eq (x : FVec Ideal Cert.ReferenceIdeal.S100000x64 .f32) (w : FVec Ideal Cert.ReferenceIdeal.S64x1 .f32) :
    Cert.KernelIdeal.Layer2.rowsByCols x w = Host.dotGeneral (F := Ideal) dims2 none x w := by
  funext i
  obtain ⟨r, q, rfl⟩ : ∃ (r : Fin 100000) (q : Fin 1), i = ix2 (n0 := 100000) (n1 := 1) r q := ⟨i 0, i 1, ValueIdx.eq_ix2 i⟩
  symm
  simp only [Host.dotGeneral]
  rw [Ideal.dotGeneral_apply, ← Equiv.sum_comp (ValueIdx.contrEquiv1 dims2 64 rfl rfl).symm]
  show _ = ∑ k : Fin 64, x (ix2 (n0 := 100000) (n1 := 64) r k) * w (ix2 (n0 := 64) (n1 := 1) k q)
  refine Finset.sum_congr rfl fun k _ => ?_
  have hk := ValueIdx.contrEquiv1_symm_val dims2 64 rfl rfl k
  have el : dims2.lhsIdx (ix2 (n0 := 100000) (n1 := 1) r q) ((ValueIdx.contrEquiv1 dims2 64 rfl rfl).symm k)
      = ix2 (n0 := 100000) (n1 := 64) r k := funext fun a => Fin.ext (by
    match a with
    | ⟨0, _⟩ =>
      show (dims2.lhsIdx (ix2 (n0 := 100000) (n1 := 1) r q) _ 0).val = r.val
      unfold DotDims.lhsIdx
      rw [dif_neg (show ¬(0 : Fin Cert.ReferenceIdeal.S100000x64.rank) ∈ dims2.lhsBatch by decide),
        dif_pos (show (0 : Fin Cert.ReferenceIdeal.S100000x64.rank) ∈ dims2.lhsNonContracting by decide)]
      rfl
    | ⟨1, _⟩ => exact (dims2.lhsIdx_val_of_single rfl _ _).trans hk)
  have er : dims2.rhsIdx (ix2 (n0 := 100000) (n1 := 1) r q) ((ValueIdx.contrEquiv1 dims2 64 rfl rfl).symm k)
      = ix2 (n0 := 64) (n1 := 1) k q := funext fun a => Fin.ext (by
    match a with
    | ⟨0, _⟩ => exact (dims2.rhsIdx_val_of_single rfl _ _).trans hk
    | ⟨1, _⟩ =>
      show (dims2.rhsIdx (ix2 (n0 := 100000) (n1 := 1) r q) _ 1).val = q.val
      unfold DotDims.rhsIdx
      rw [dif_neg (show ¬(1 : Fin Cert.ReferenceIdeal.S64x1.rank) ∈ dims2.rhsBatch by decide),
        dif_pos (show (1 : Fin Cert.ReferenceIdeal.S64x1.rank) ∈ dims2.rhsNonContracting by decide)]
      rfl)
  rw [el, er]

/-- The second pipeline's array is the reference's bias chain and maximum with zero, for any one-row array `bk` whose
    row is the bias vector `b`. -/
theorem layer1act_eq (g : FVec Ideal Cert.ReferenceIdeal.S100000x64 .f32) (b : FVec Ideal Cert.ReferenceIdeal.S64 .f32) (bk : FVec Ideal Cert.ReferenceIdeal.S1x64 .f32)
    (hbk : ∀ q : Fin 64, bk (ix2 (n0 := 1) (n1 := 64) (0 : Fin 1) q) = b (ix1 q)) :
    Cert.KernelIdeal.Layer1Act.biasMax g bk
      = maximumf (addf g (broadcastInDim Cert.ReferenceIdeal.S100000x64 ![0, 1] Cert.ReferenceIdeal.Gen.bcast_S1x64_S100000x64_0_1
            (broadcastInDim Cert.ReferenceIdeal.S1x64 ![1] Cert.ReferenceIdeal.Gen.bcast_S64_S1x64_1 b)))
          (broadcastInDim Cert.ReferenceIdeal.S100000x64 ![] Cert.ReferenceIdeal.Gen.bcast_S_S100000x64 (constant (F := Ideal) Cert.ReferenceIdeal.S_ .f32 0x00000000#32)) := by
  funext i
  obtain ⟨r, q, rfl⟩ : ∃ (r : Fin 100000) (q : Fin 64), i = ix2 (n0 := 100000) (n1 := 64) r q := ⟨i 0, i 1, ValueIdx.eq_ix2 i⟩
  have e1 : broadcastInDim Cert.ReferenceIdeal.S100000x64 ![0, 1] Cert.ReferenceIdeal.Gen.bcast_S1x64_S100000x64_0_1
        (broadcastInDim Cert.ReferenceIdeal.S1x64 ![1] Cert.ReferenceIdeal.Gen.bcast_S64_S1x64_1 b) (ix2 (n0 := 100000) (n1 := 64) r q) = b (ix1 q) := by
    rw [broadcastInDim_apply _ Cert.ReferenceIdeal.Gen.bcast_S1x64_S100000x64_0_1 _ (ix2 (n0 := 100000) (n1 := 64) r q) (ix2 (n0 := 1) (n1 := 64) (0 : Fin 1) q) (fun a => match a with
      | ⟨0, _⟩ => by show 0 = if (1 : Nat) = 1 then 0 else r.val; rw [if_pos rfl]
      | ⟨1, _⟩ => by show q.val = if (64 : Nat) = 1 then 0 else q.val; rw [if_neg (by decide)])]
    exact broadcastInDim_apply _ Cert.ReferenceIdeal.Gen.bcast_S64_S1x64_1 b (ix2 (n0 := 1) (n1 := 64) (0 : Fin 1) q) (ix1 q) (fun a => match a with
      | ⟨0, _⟩ => by show q.val = if (64 : Nat) = 1 then 0 else q.val; rw [if_neg (by decide)])
  have e0 : broadcastInDim Cert.ReferenceIdeal.S100000x64 ![] Cert.ReferenceIdeal.Gen.bcast_S_S100000x64 (constant (F := Ideal) Cert.ReferenceIdeal.S_ .f32 0x00000000#32)
        (ix2 (n0 := 100000) (n1 := 64) r q) = FloatOps.ofBits (F := Ideal) .f32 0x00000000#32 :=
    broadcastInDim_apply _ Cert.ReferenceIdeal.Gen.bcast_S_S100000x64 _ (ix2 (n0 := 100000) (n1 := 64) r q) (fun a => a.elim0) (fun a => a.elim0)
  show FloatOps.maximumf (F := Ideal) (FloatOps.addf (F := Ideal) (g (ix2 (n0 := 100000) (n1 := 64) r q)) (bk (ix2 (n0 := 1) (n1 := 64) (0 : Fin 1) q)))
      (FloatOps.ofBits (F := Ideal) .f32 0x00000000#32)
    = FloatOps.maximumf (F := Ideal) (FloatOps.addf (F := Ideal) (g (ix2 (n0 := 100000) (n1 := 64) r q))
        (broadcastInDim Cert.ReferenceIdeal.S100000x64 ![0, 1] Cert.ReferenceIdeal.Gen.bcast_S1x64_S100000x64_0_1
          (broadcastInDim Cert.ReferenceIdeal.S1x64 ![1] Cert.ReferenceIdeal.Gen.bcast_S64_S1x64_1 b) (ix2 (n0 := 100000) (n1 := 64) r q)))
      (broadcastInDim Cert.ReferenceIdeal.S100000x64 ![] Cert.ReferenceIdeal.Gen.bcast_S_S100000x64 (constant (F := Ideal) Cert.ReferenceIdeal.S_ .f32 0x00000000#32) (ix2 (n0 := 100000) (n1 := 64) r q))
  rw [e1, e0, hbk q]

/-- The bit pattern of 1.0 denotes the real number 1. -/
theorem one_bits : Ideal.ofBits .f32 0x3F800000#32 = 1 := by
  simp [Ideal.ofBits, Ideal.ieee, -EReal.coe_mul]; norm_num

/-- The fourth pipeline's array is the reference's bias chain followed by its expansion of the logistic function, for
    any 1 × 1 array `bk` holding the bias `b`. -/
theorem layer2act_eq (g : FVec Ideal Cert.ReferenceIdeal.S100000x1 .f32) (b : FVec Ideal Cert.ReferenceIdeal.S1 .f32) (bk : FVec Ideal Cert.ReferenceIdeal.S1x1 .f32)
    (hbk : bk (ix2 (n0 := 1) (n1 := 1) (0 : Fin 1) (0 : Fin 1)) = b (ix1 (0 : Fin 1))) :
    Cert.KernelIdeal.Layer2Act.biasLogistic g bk
      = Host.divf (F := Ideal) (broadcastInDim Cert.ReferenceIdeal.S100000x1 ![] Cert.ReferenceIdeal.Gen.bcast_S_S100000x1 (constant (F := Ideal) Cert.ReferenceIdeal.S_ .f32 0x3F800000#32))
          (addf (broadcastInDim Cert.ReferenceIdeal.S100000x1 ![] Cert.ReferenceIdeal.Gen.bcast_S_S100000x1 (constant (F := Ideal) Cert.ReferenceIdeal.S_ .f32 0x3F800000#32))
            (Host.exp (F := Ideal) (Host.negf (F := Ideal) (addf g (broadcastInDim Cert.ReferenceIdeal.S100000x1 ![0, 1] Cert.ReferenceIdeal.Gen.bcast_S1x1_S100000x1_0_1
              (broadcastInDim Cert.ReferenceIdeal.S1x1 ![1] Cert.ReferenceIdeal.Gen.bcast_S1_S1x1_1 b)))))) := by
  funext i
  obtain ⟨r, q, rfl⟩ : ∃ (r : Fin 100000) (q : Fin 1), i = ix2 (n0 := 100000) (n1 := 1) r q := ⟨i 0, i 1, ValueIdx.eq_ix2 i⟩
  have hq : q = (0 : Fin 1) := Subsingleton.elim _ _
  subst hq
  have e1 : broadcastInDim Cert.ReferenceIdeal.S100000x1 ![0, 1] Cert.ReferenceIdeal.Gen.bcast_S1x1_S100000x1_0_1
        (broadcastInDim Cert.ReferenceIdeal.S1x1 ![1] Cert.ReferenceIdeal.Gen.bcast_S1_S1x1_1 b) (ix2 (n0 := 100000) (n1 := 1) r (0 : Fin 1)) = b (ix1 (0 : Fin 1)) := by
    rw [broadcastInDim_apply _ Cert.ReferenceIdeal.Gen.bcast_S1x1_S100000x1_0_1 _ (ix2 (n0 := 100000) (n1 := 1) r (0 : Fin 1)) (ix2 (n0 := 1) (n1 := 1) (0 : Fin 1) (0 : Fin 1)) (fun a => match a with
      | ⟨0, _⟩ => by show 0 = if (1 : Nat) = 1 then 0 else r.val; rw [if_pos rfl]
      | ⟨1, _⟩ => by show 0 = if (1 : Nat) = 1 then 0 else 0; rw [if_pos rfl])]
    exact broadcastInDim_apply _ Cert.ReferenceIdeal.Gen.bcast_S1_S1x1_1 b (ix2 (n0 := 1) (n1 := 1) (0 : Fin 1) (0 : Fin 1)) (ix1 (0 : Fin 1)) (fun a => match a with
      | ⟨0, _⟩ => by show 0 = if (1 : Nat) = 1 then 0 else 0; rw [if_pos rfl])
  have eone : broadcastInDim Cert.ReferenceIdeal.S100000x1 ![] Cert.ReferenceIdeal.Gen.bcast_S_S100000x1 (constant (F := Ideal) Cert.ReferenceIdeal.S_ .f32 0x3F800000#32)
        (ix2 (n0 := 100000) (n1 := 1) r (0 : Fin 1)) = (1 : EReal) :=
    (broadcastInDim_apply _ Cert.ReferenceIdeal.Gen.bcast_S_S100000x1 _ (ix2 (n0 := 100000) (n1 := 1) r (0 : Fin 1)) (fun a => a.elim0) (fun a => a.elim0)).trans one_bits
  show Ideal.logistic (g (ix2 (n0 := 100000) (n1 := 1) r (0 : Fin 1)) + bk (ix2 (n0 := 1) (n1 := 1) (0 : Fin 1) (0 : Fin 1)))
    = Ideal.div (broadcastInDim Cert.ReferenceIdeal.S100000x1 ![] Cert.ReferenceIdeal.Gen.bcast_S_S100000x1 (constant (F := Ideal) Cert.ReferenceIdeal.S_ .f32 0x3F800000#32) (ix2 (n0 := 100000) (n1 := 1) r (0 : Fin 1)))
        (broadcastInDim Cert.ReferenceIdeal.S100000x1 ![] Cert.ReferenceIdeal.Gen.bcast_S_S100000x1 (constant (F := Ideal) Cert.ReferenceIdeal.S_ .f32 0x3F800000#32) (ix2 (n0 := 100000) (n1 := 1) r (0 : Fin 1))
          + Ideal.exp (-(g (ix2 (n0 := 100000) (n1 := 1) r (0 : Fin 1))
              + broadcastInDim Cert.ReferenceIdeal.S100000x1 ![0, 1] Cert.ReferenceIdeal.Gen.bcast_S1x1_S100000x1_0_1
                  (broadcastInDim Cert.ReferenceIdeal.S1x1 ![1] Cert.ReferenceIdeal.Gen.bcast_S1_S1x1_1 b) (ix2 (n0 := 100000) (n1 := 1) r (0 : Fin 1)))))
  rw [e1, eone, hbk]
  rfl

end Cert.Bridge

end
-- ==== Proof.BridgeLayer1.lean ====
/-
  The first layer, stage by stage: the two index rows, the first product, the first aggregation, and the bias with the
  maximum against zero. At each cut the buffer the kernel's next stage reads holds what the reference's does.
-/
import proofs.«121171_j3934190044271_1_alg».proof.Proof.BridgeBase
import proofs.«121171_j3934190044271_1_alg».proof.Proof.Aggregation1
import proofs.«121171_j3934190044271_1_alg».proof.Proof.Layer1
import proofs.«121171_j3934190044271_1_alg».proof.Proof.Layer1Act
import proofs.«121171_j3934190044271_1_alg».proof.Proof.RefOps
import Idealize.ShloMosaic.Lib.ValueLayout

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx (ix1 ix2)

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)
variable (c : Dev nD)

/-! ## The stages -/

/-- The index row cut out of the edge list and flattened: the same two operations on equal edge lists. -/
theorem rows_main_v1 (h1 : m' ((c.tc : Thread Cert.ReferenceIdeal.nD Cert.ReferenceIdeal.τ).loc Cert.ReferenceIdeal.main_arg1) = m ((c.tc : Thread nD τ).loc main_arg1)) : W1 m ρ c (Proc.devRef .tc main_v1) = R1 m' c (Proc.devRef .tc Cert.ReferenceIdeal.main_v1) := by
  show after hostOps0 (W0 m ρ c) (Proc.devRef .tc main_v1) = after (Cert.ReferenceIdeal.ValueP.seg0 (F := Ideal)) (R0 m' c) (Proc.devRef .tc Cert.ReferenceIdeal.main_v1)
  reads
  rw [show R0 m' c (Proc.devRef .tc Cert.ReferenceIdeal.main_arg1) = W0 m ρ c (Proc.devRef .tc main_arg1) from h1]
  rfl

/-- The index row cut out of the edge list and flattened: the same two operations on equal edge lists. -/
theorem rows_main_v3 (h1 : m' ((c.tc : Thread Cert.ReferenceIdeal.nD Cert.ReferenceIdeal.τ).loc Cert.ReferenceIdeal.main_arg1) = m ((c.tc : Thread nD τ).loc main_arg1)) : W1 m ρ c (Proc.devRef .tc main_v3) = R1 m' c (Proc.devRef .tc Cert.ReferenceIdeal.main_v3) := by
  show after hostOps0 (W0 m ρ c) (Proc.devRef .tc main_v3) = after (Cert.ReferenceIdeal.ValueP.seg0 (F := Ideal)) (R0 m' c) (Proc.devRef .tc Cert.ReferenceIdeal.main_v3)
  reads
  rw [show R0 m' c (Proc.devRef .tc Cert.ReferenceIdeal.main_arg1) = W0 m ρ c (Proc.devRef .tc main_arg1) from h1]
  rfl

/-- The first pipeline's product array is the reference's first product. -/
theorem stage1 (h0 : m' ((c.tc : Thread Cert.ReferenceIdeal.nD Cert.ReferenceIdeal.τ).loc Cert.ReferenceIdeal.main_arg0) = m ((c.tc : Thread nD τ).loc main_arg0)) (h2 : m' ((c.tc : Thread Cert.ReferenceIdeal.nD Cert.ReferenceIdeal.τ).loc Cert.ReferenceIdeal.main_arg2) = m ((c.tc : Thread nD τ).loc main_arg2)) : W2 m ρ c (Proc.devRef .tc main_v4) = R1 m' c (Proc.devRef .tc Cert.ReferenceIdeal.main_v4) := by
  have hk : W2 m ρ c (Proc.devRef .tc main_v4) = Layer1.rowsByCols (m ((c.tc : Thread nD τ).loc main_arg0)) (m ((c.tc : Thread nD τ).loc main_arg2)) := by
    refine (W2_arr m ρ c 2).trans ((Layer1.result (V1 m ρ) c).trans ?_)
    show Layer1.rowsByCols (W1 m ρ c (Proc.devRef .tc main_arg0)) (W1 m ρ c (Proc.devRef .tc main_arg2)) = _
    rw [k1_main_arg0, k1_main_arg2]
  have hr : R1 m' c (Proc.devRef .tc Cert.ReferenceIdeal.main_v4) = Host.dotGeneral (F := Ideal) (φ₁ := .f32) (φ₂ := .f32) dims1 none (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) := by
    show after (Cert.ReferenceIdeal.ValueP.seg0 (F := Ideal)) (R0 m' c) (Proc.devRef .tc Cert.ReferenceIdeal.main_v4) = _
    reads
    rfl
  rw [hk, hr, h0, h2]
  exact layer1_eq _ _

/-- The first aggregation: one list of host operations on equal arrays. -/
theorem stage2 (h0 : m' ((c.tc : Thread Cert.ReferenceIdeal.nD Cert.ReferenceIdeal.τ).loc Cert.ReferenceIdeal.main_arg0) = m ((c.tc : Thread nD τ).loc main_arg0)) (h1 : m' ((c.tc : Thread Cert.ReferenceIdeal.nD Cert.ReferenceIdeal.τ).loc Cert.ReferenceIdeal.main_arg1) = m ((c.tc : Thread nD τ).loc main_arg1)) (h2 : m' ((c.tc : Thread Cert.ReferenceIdeal.nD Cert.ReferenceIdeal.τ).loc Cert.ReferenceIdeal.main_arg2) = m ((c.tc : Thread nD τ).loc main_arg2)) : W5 m ρ c (Proc.devRef .tc main_v43) = R2 m' c (Proc.devRef .tc Cert.ReferenceIdeal.main_v43) :=
  aggregation1 (W2 m ρ c) (R1 m' c) (stage1 m ρ m' c h0 h2)
    ((k2_main_v1 m ρ c).trans (rows_main_v1 m ρ m' c h1)) ((k2_main_v3 m ρ c).trans (rows_main_v3 m ρ m' c h1))

/-- The one-row bias array the second pipeline reads is the bias vector laid out as a row. -/
theorem bias_row1 (h3 : m' ((c.tc : Thread Cert.ReferenceIdeal.nD Cert.ReferenceIdeal.τ).loc Cert.ReferenceIdeal.main_arg3) = m ((c.tc : Thread nD τ).loc main_arg3)) (q : Fin 64) :
    (V5 m ρ c main_v44 : FVec Ideal Cert.ReferenceIdeal.S1x64 .f32) (ix2 (n0 := 1) (n1 := 64) (0 : Fin 1) q) = (m' ((c.tc : Thread Cert.ReferenceIdeal.nD Cert.ReferenceIdeal.τ).loc Cert.ReferenceIdeal.main_arg3) : FVec Ideal Cert.ReferenceIdeal.S64 .f32) (ix1 q) := by
  have e : W5 m ρ c (Proc.devRef .tc main_v44) = shapeCast S1x64 (m ((c.tc : Thread nD τ).loc main_arg3)) shapeCasts_S64_S1x64 := by
    show (after hostOps1_2 (after hostOps1_1 (after hostOps1 (W2 m ρ c)))) (Proc.devRef .tc main_v44) = _
    reads
    rw [k2_main_arg3]
    rfl
  show (W5 m ρ c (Proc.devRef .tc main_v44) : FVec Ideal Cert.ReferenceIdeal.S1x64 .f32) (ix2 (n0 := 1) (n1 := 64) (0 : Fin 1) q) = _
  rw [e, h3]
  exact ValueIdx.shapeCast_a_1a_apply _ _ (0 : Fin 1) q

/-- The second pipeline's array is the reference's bias, add and maximum with zero. -/
theorem stage3 (h0 : m' ((c.tc : Thread Cert.ReferenceIdeal.nD Cert.ReferenceIdeal.τ).loc Cert.ReferenceIdeal.main_arg0) = m ((c.tc : Thread nD τ).loc main_arg0)) (h1 : m' ((c.tc : Thread Cert.ReferenceIdeal.nD Cert.ReferenceIdeal.τ).loc Cert.ReferenceIdeal.main_arg1) = m ((c.tc : Thread nD τ).loc main_arg1)) (h2 : m' ((c.tc : Thread Cert.ReferenceIdeal.nD Cert.ReferenceIdeal.τ).loc Cert.ReferenceIdeal.main_arg2) = m ((c.tc : Thread nD τ).loc main_arg2)) (h3 : m' ((c.tc : Thread Cert.ReferenceIdeal.nD Cert.ReferenceIdeal.τ).loc Cert.ReferenceIdeal.main_arg3) = m ((c.tc : Thread nD τ).loc main_arg3)) : W6 m ρ c (Proc.devRef .tc main_v45) = R3 m' c (Proc.devRef .tc Cert.ReferenceIdeal.main_v47) := by
  have hk : W6 m ρ c (Proc.devRef .tc main_v45) = Layer1Act.biasMax (R2 m' c (Proc.devRef .tc Cert.ReferenceIdeal.main_v43)) (V5 m ρ c main_v44) := by
    refine (W6_arr m ρ c 2).trans ((Layer1Act.result (V5 m ρ) c).trans ?_)
    show Layer1Act.biasMax (W5 m ρ c (Proc.devRef .tc main_v43)) (V5 m ρ c main_v44) = _
    rw [stage2 m ρ m' c h0 h1 h2]
  rw [hk]
  show Layer1Act.biasMax (R2 m' c (Proc.devRef .tc Cert.ReferenceIdeal.main_v43)) (V5 m ρ c main_v44) = after (Cert.ReferenceIdeal.ValueP.seg2 (F := Ideal)) (R2 m' c) (Proc.devRef .tc Cert.ReferenceIdeal.main_v47)
  rw [ref_relu (R2 m' c) _ _ rfl (r2_main_arg3 m' c)]
  exact layer1act_eq _ _ _ (bias_row1 m ρ m' c h3)

end Cert.Bridge

end
-- ==== Proof.Aggregation2.lean ====
/-
  The second aggregation, compared as written: the same operations as the first on a one-column feature array (51 of
  them: a one-column array needs no broadcast along its columns before the scaling).
-/
import proofs.«121171_j3934190044271_1_alg».proof.Proof.BridgeBase

set_option maxRecDepth 16384

noncomputable section

namespace Cert.Bridge

open Cert.KernelIdeal Cert.KernelIdeal.Gen
open Idealize.ShloMosaic Idealize.ShloMosaic.TcCoe Idealize.SL.Sem Idealize.ShloMosaic.StableHlo

set_option maxHeartbeats 8000000 in
/-- From any two starting contents that agree on the feature array and on the two index rows, the kernel's three
    stretches of host operations and the reference's piece leave equal aggregated arrays: they are the same operations. -/
theorem aggregation2 (Wk : Valuation τ sig (Elt Ideal)) (U : Valuation Cert.ReferenceIdeal.τ Cert.ReferenceIdeal.sig (Elt Ideal))
    (hf : Wk (Proc.devRef .tc main_v46) = U (Proc.devRef .tc Cert.ReferenceIdeal.main_v48))
    (hs : Wk (Proc.devRef .tc main_v1) = U (Proc.devRef .tc Cert.ReferenceIdeal.main_v1))
    (hd : Wk (Proc.devRef .tc main_v3) = U (Proc.devRef .tc Cert.ReferenceIdeal.main_v3)) :
    (after hostOps3_2 (after hostOps3_1 (after hostOps3 Wk))) (Proc.devRef .tc main_v84) = after (Cert.ReferenceIdeal.ValueP.seg4 (F := Ideal)) U (Proc.devRef .tc Cert.ReferenceIdeal.main_v86) := by
  reads
  rw [hf, hs, hd]
  rfl

end Cert.Bridge

end
-- ==== Proof.Bridge.lean ====
/-
  The two runs meet. The idealized kernel's buffers are followed boundary by boundary: host operations, then a grid
  pipeline, and so on; the reference's straight line of host operations is cut at the matching places. At each cut
  the buffer the kernel's next stage reads holds what the reference's does:
    · the two index rows cut out of the edge list, which no later stage overwrites;
    · after the first pipeline, its product array is the reference's first matrix product;
    · the aggregation (degree count, inverse square root, gather, scale, scatter-add) is the same list of host
      operations in both programs, applied to equal arrays, so its result is equal — it is compared as written and
      never opened;
    · after the second pipeline, bias and maximum with zero, as the reference computes them on the host;
    · the second product, the second aggregation, and last the bias and the logistic function.
  Hence the kernel's result array ends holding exactly the reference's result.
-/
import proofs.«121171_j3934190044271_1_alg».proof.Proof.BridgeLayer1
import proofs.«121171_j3934190044271_1_alg».proof.Proof.Aggregation2
import proofs.«121171_j3934190044271_1_alg».proof.Proof.Layer2
import proofs.«121171_j3934190044271_1_alg».proof.Proof.Layer2Act
import proofs.«121171_j3934190044271_1_alg».proof.Proof.RefOps
import Idealize.ShloMosaic.Lib.ValueLayout

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx (ix1 ix2)

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)
variable (c : Dev nD)

/-! ## The second layer -/

/-- The third pipeline's product array is the reference's second product. -/
theorem stage4 (h0 : m' ((c.tc : Thread Cert.ReferenceIdeal.nD Cert.ReferenceIdeal.τ).loc Cert.ReferenceIdeal.main_arg0) = m ((c.tc : Thread nD τ).loc main_arg0)) (h1 : m' ((c.tc : Thread Cert.ReferenceIdeal.nD Cert.ReferenceIdeal.τ).loc Cert.ReferenceIdeal.main_arg1) = m ((c.tc : Thread nD τ).loc main_arg1)) (h2 : m' ((c.tc : Thread Cert.ReferenceIdeal.nD Cert.ReferenceIdeal.τ).loc Cert.ReferenceIdeal.main_arg2) = m ((c.tc : Thread nD τ).loc main_arg2)) (h3 : m' ((c.tc : Thread Cert.ReferenceIdeal.nD Cert.ReferenceIdeal.τ).loc Cert.ReferenceIdeal.main_arg3) = m ((c.tc : Thread nD τ).loc main_arg3)) (h4 : m' ((c.tc : Thread Cert.ReferenceIdeal.nD Cert.ReferenceIdeal.τ).loc Cert.ReferenceIdeal.main_arg4) = m ((c.tc : Thread nD τ).loc main_arg4)) : W7 m ρ c (Proc.devRef .tc main_v46) = R4 m' c (Proc.devRef .tc Cert.ReferenceIdeal.main_v48) := by
  have hk : W7 m ρ c (Proc.devRef .tc main_v46) = Layer2.rowsByCols (R3 m' c (Proc.devRef .tc Cert.ReferenceIdeal.main_v47)) (m ((c.tc : Thread nD τ).loc main_arg4)) := by
    refine (W7_arr m ρ c 2).trans ((Layer2.result (V6 m ρ) c).trans ?_)
    show Layer2.rowsByCols (W6 m ρ c (Proc.devRef .tc main_v45)) (W6 m ρ c (Proc.devRef .tc main_arg4)) = _
    rw [stage3 m ρ m' c h0 h1 h2 h3, k6_main_arg4]
  rw [hk]
  show Layer2.rowsByCols (R3 m' c (Proc.devRef .tc Cert.ReferenceIdeal.main_v47)) (m ((c.tc : Thread nD τ).loc main_arg4)) = after (Cert.ReferenceIdeal.ValueP.seg3 (F := Ideal)) (R3 m' c) (Proc.devRef .tc Cert.ReferenceIdeal.main_v48)
  rw [ref_dot2 (R3 m' c) _ _ rfl (r3_main_arg4 m' c), h4]
  exact layer2_eq _ _

/-- An index row, unchanged from the first cut to the fourth on both sides. -/
theorem rows7 (h1 : m' ((c.tc : Thread Cert.ReferenceIdeal.nD Cert.ReferenceIdeal.τ).loc Cert.ReferenceIdeal.main_arg1) = m ((c.tc : Thread nD τ).loc main_arg1)) : W7 m ρ c (Proc.devRef .tc main_v1) = R4 m' c (Proc.devRef .tc Cert.ReferenceIdeal.main_v1) ∧ W7 m ρ c (Proc.devRef .tc main_v3) = R4 m' c (Proc.devRef .tc Cert.ReferenceIdeal.main_v3) :=
  ⟨(k7_main_v1 m ρ c).trans ((rows_main_v1 m ρ m' c h1).trans (r4_main_v1 m' c).symm),
   (k7_main_v3 m ρ c).trans ((rows_main_v3 m ρ m' c h1).trans (r4_main_v3 m' c).symm)⟩

/-- The second aggregation: one list of host operations on equal arrays. -/
theorem stage5 (h0 : m' ((c.tc : Thread Cert.ReferenceIdeal.nD Cert.ReferenceIdeal.τ).loc Cert.ReferenceIdeal.main_arg0) = m ((c.tc : Thread nD τ).loc main_arg0)) (h1 : m' ((c.tc : Thread Cert.ReferenceIdeal.nD Cert.ReferenceIdeal.τ).loc Cert.ReferenceIdeal.main_arg1) = m ((c.tc : Thread nD τ).loc main_arg1)) (h2 : m' ((c.tc : Thread Cert.ReferenceIdeal.nD Cert.ReferenceIdeal.τ).loc Cert.ReferenceIdeal.main_arg2) = m ((c.tc : Thread nD τ).loc main_arg2)) (h3 : m' ((c.tc : Thread Cert.ReferenceIdeal.nD Cert.ReferenceIdeal.τ).loc Cert.ReferenceIdeal.main_arg3) = m ((c.tc : Thread nD τ).loc main_arg3)) (h4 : m' ((c.tc : Thread Cert.ReferenceIdeal.nD Cert.ReferenceIdeal.τ).loc Cert.ReferenceIdeal.main_arg4) = m ((c.tc : Thread nD τ).loc main_arg4)) : W10 m ρ c (Proc.devRef .tc main_v84) = R5 m' c (Proc.devRef .tc Cert.ReferenceIdeal.main_v86) :=
  aggregation2 (W7 m ρ c) (R4 m' c) (stage4 m ρ m' c h0 h1 h2 h3 h4) (rows7 m ρ m' c h1).1 (rows7 m ρ m' c h1).2

/-- The 1 × 1 bias array the fourth pipeline reads holds the bias. -/
theorem bias_row2 (h5 : m' ((c.tc : Thread Cert.ReferenceIdeal.nD Cert.ReferenceIdeal.τ).loc Cert.ReferenceIdeal.main_arg5) = m ((c.tc : Thread nD τ).loc main_arg5)) :
    (V10 m ρ c main_v85 : FVec Ideal Cert.ReferenceIdeal.S1x1 .f32) (ix2 (n0 := 1) (n1 := 1) (0 : Fin 1) (0 : Fin 1)) = (m' ((c.tc : Thread Cert.ReferenceIdeal.nD Cert.ReferenceIdeal.τ).loc Cert.ReferenceIdeal.main_arg5) : FVec Ideal Cert.ReferenceIdeal.S1 .f32) (ix1 (0 : Fin 1)) := by
  have e : W10 m ρ c (Proc.devRef .tc main_v85) = shapeCast S1x1 (m ((c.tc : Thread nD τ).loc main_arg5)) shapeCasts_S1_S1x1 := by
    show (after hostOps3_2 (after hostOps3_1 (after hostOps3 (W7 m ρ c)))) (Proc.devRef .tc main_v85) = _
    reads
    rw [k7_main_arg5]
    rfl
  show (W10 m ρ c (Proc.devRef .tc main_v85) : FVec Ideal Cert.ReferenceIdeal.S1x1 .f32) (ix2 (n0 := 1) (n1 := 1) (0 : Fin 1) (0 : Fin 1)) = _
  rw [e, h5]
  exact ValueIdx.shapeCast_a_1a_apply _ _ (0 : Fin 1) (0 : Fin 1)

/-- The fourth pipeline's array is the reference's bias, add and its expansion of the logistic function. -/
theorem stage6 (h0 : m' ((c.tc : Thread Cert.ReferenceIdeal.nD Cert.ReferenceIdeal.τ).loc Cert.ReferenceIdeal.main_arg0) = m ((c.tc : Thread nD τ).loc main_arg0)) (h1 : m' ((c.tc : Thread Cert.ReferenceIdeal.nD Cert.ReferenceIdeal.τ).loc Cert.ReferenceIdeal.main_arg1) = m ((c.tc : Thread nD τ).loc main_arg1)) (h2 : m' ((c.tc : Thread Cert.ReferenceIdeal.nD Cert.ReferenceIdeal.τ).loc Cert.ReferenceIdeal.main_arg2) = m ((c.tc : Thread nD τ).loc main_arg2)) (h3 : m' ((c.tc : Thread Cert.ReferenceIdeal.nD Cert.ReferenceIdeal.τ).loc Cert.ReferenceIdeal.main_arg3) = m ((c.tc : Thread nD τ).loc main_arg3)) (h4 : m' ((c.tc : Thread Cert.ReferenceIdeal.nD Cert.ReferenceIdeal.τ).loc Cert.ReferenceIdeal.main_arg4) = m ((c.tc : Thread nD τ).loc main_arg4)) (h5 : m' ((c.tc : Thread Cert.ReferenceIdeal.nD Cert.ReferenceIdeal.τ).loc Cert.ReferenceIdeal.main_arg5) = m ((c.tc : Thread nD τ).loc main_arg5)) : W11 m ρ c (Proc.devRef .tc main_v86) = R6 m' c (Proc.devRef .tc Cert.ReferenceIdeal.main_v95) := by
  have hk : W11 m ρ c (Proc.devRef .tc main_v86) = Layer2Act.biasLogistic (R5 m' c (Proc.devRef .tc Cert.ReferenceIdeal.main_v86)) (V10 m ρ c main_v85) := by
    refine (W11_arr m ρ c 2).trans ((Layer2Act.result (V10 m ρ) c).trans ?_)
    show Layer2Act.biasLogistic (W10 m ρ c (Proc.devRef .tc main_v84)) (V10 m ρ c main_v85) = _
    rw [stage5 m ρ m' c h0 h1 h2 h3 h4]
  rw [hk]
  show Layer2Act.biasLogistic (R5 m' c (Proc.devRef .tc Cert.ReferenceIdeal.main_v86)) (V10 m ρ c main_v85) = after (Cert.ReferenceIdeal.ValueP.seg5 (F := Ideal)) (R5 m' c) (Proc.devRef .tc Cert.ReferenceIdeal.main_v95)
  rw [ref_logistic (R5 m' c) _ _ rfl (r5_main_arg5 m' c)]
  exact layer2act_eq _ _ _ (bias_row2 m ρ m' c h5)

/-- The kernel's result buffer at the last boundary of its run holds the reference's fold at its result buffer. -/
theorem result_eq (h0 : m' ((c.tc : Thread Cert.ReferenceIdeal.nD Cert.ReferenceIdeal.τ).loc Cert.ReferenceIdeal.main_arg0) = m ((c.tc : Thread nD τ).loc main_arg0)) (h1 : m' ((c.tc : Thread Cert.ReferenceIdeal.nD Cert.ReferenceIdeal.τ).loc Cert.ReferenceIdeal.main_arg1) = m ((c.tc : Thread nD τ).loc main_arg1)) (h2 : m' ((c.tc : Thread Cert.ReferenceIdeal.nD Cert.ReferenceIdeal.τ).loc Cert.ReferenceIdeal.main_arg2) = m ((c.tc : Thread nD τ).loc main_arg2)) (h3 : m' ((c.tc : Thread Cert.ReferenceIdeal.nD Cert.ReferenceIdeal.τ).loc Cert.ReferenceIdeal.main_arg3) = m ((c.tc : Thread nD τ).loc main_arg3)) (h4 : m' ((c.tc : Thread Cert.ReferenceIdeal.nD Cert.ReferenceIdeal.τ).loc Cert.ReferenceIdeal.main_arg4) = m ((c.tc : Thread nD τ).loc main_arg4)) (h5 : m' ((c.tc : Thread Cert.ReferenceIdeal.nD Cert.ReferenceIdeal.τ).loc Cert.ReferenceIdeal.main_arg5) = m ((c.tc : Thread nD τ).loc main_arg5)) :
    W11 m ρ c (Proc.devRef .tc main_v86) = after (Cert.ReferenceIdeal.ValueP.ops (F := Ideal)) (launchContents m' c) (Proc.devRef .tc Cert.ReferenceIdeal.main_v95) :=
  (stage6 m ρ m' c h0 h1 h2 h3 h4 h5).trans (ref_fold m' c _).symm

end Cert.Bridge

end
-- ==== Proof.lean ====
/-
  A two-layer graph convolution: features x [100000, 256], an edge list [2, 1600000], weights W1 [256, 64], W2 [64, 1],
  biases b1 [64], b2 [1]. Each layer multiplies by its weights, aggregates over the edges with self loops and the
  symmetric inverse-square-root degree scaling, adds its bias and applies its activation (maximum with zero, then the
  logistic function). The kernel does the two products and the two bias-and-activation steps as grid pipelines over
  blocks of 2000 rows and leaves the aggregation to the host; the reference does everything on the host.

  At the extended reals the two programs compute the same array, entry by entry, for every input — finite or not:
    · a block product into a zero accumulator is the plain sum over the contracted axis, and 50 blocks of 2000 rows
      tile the 100000 rows, so each pipelined product is the host's whole product;
    · the aggregation is literally the same list of host operations in both programs;
    · adding a bias kept as one row and broadcast inside the block is adding the host's broadcast bias, and the
      maximum with zero is the same operation on both sides;
    · the logistic function is by definition 1 / (1 + e^(-x)) on the extended reals, which is how the reference
      spells it (negate, exponential, one plus, one over).
  The idealization rewrote no operation of the kernel, so there is nothing to preserve beyond the program itself.
  Each program's run terminates without a fault and leaves its arguments as launched: for the two kernels this is the
  generated frame, for the reference the host line's run.
-/
import proofs.«121171_j3934190044271_1_alg».proof.Defs
import proofs.«121171_j3934190044271_1_alg».proof.Proof.Gen.Kernel
import proofs.«121171_j3934190044271_1_alg».proof.Proof.Gen.Kernel.Frame
import proofs.«121171_j3934190044271_1_alg».proof.Proof.Gen.KernelIdeal
import proofs.«121171_j3934190044271_1_alg».proof.Proof.Gen.KernelIdeal.Frame
import proofs.«121171_j3934190044271_1_alg».proof.Proof.Gen.ReferenceIdeal
import proofs.«121171_j3934190044271_1_alg».proof.Proof.Gen.Pre_finite_inputs
import proofs.«121171_j3934190044271_1_alg».proof.Proof.KernelRun
import proofs.«121171_j3934190044271_1_alg».proof.Proof.RefRun
import proofs.«121171_j3934190044271_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernel_ideal : Cert.frame_KernelIdeal := fun m ρ _ => Cert.KernelIdeal.Gen.frame m ρ

/-- The reference runs and leaves its arguments as launched: its host line's run with the result dropped. -/
theorem frame_reference : Cert.frame_ReferenceIdeal := fun m ρ _ =>
  (θ_run Cert.ReferenceIdeal.defs _ _).mono (fun _ h c => (h c).2) (Cert.ReferenceIdeal.ValueP.run_fold (F := Ideal) m ρ)

/-- The idealization rewrote nothing. -/
theorem preserves : Cert.preserves_Kernel_KernelIdeal := trivial

/-- From memories that agree on the six arguments both programs run, and the kernel's result array ends holding what
    the reference's does: the kernel's run names its result at the last boundary of its run, the reference's as the
    fold of its host line, and the two are equal stage by stage. -/
theorem algebraic : Cert.algebraic_KernelIdeal_ReferenceIdeal := by
  intro m ρ m' ρ' _ hagree
  refine ⟨fun c => Cert.KernelIdeal.Gen.W11 m ρ c (Proc.devRef .tc Cert.KernelIdeal.main_v86),
    Cert.KernelIdeal.Result.run (F := Ideal) m ρ, ?_⟩
  refine (θ_run Cert.ReferenceIdeal.defs _ _).mono (fun _ h c => ⟨(h c).1.trans ?_, (h c).2⟩)
    (Cert.ReferenceIdeal.ValueP.run_fold (F := Ideal) m' ρ')
  obtain ⟨h0, h1, h2, h3, h4, h5⟩ := hagree c
  exact (Cert.Bridge.result_eq m ρ m' c h0 h1 h2 h3 h4 h5).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
